-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x2 : Shape := ⟨2, ![131072, 2]⟩
abbrev S6040x128 : Shape := ⟨2, ![6040, 128]⟩
abbrev S3883x128 : Shape := ⟨2, ![3883, 128]⟩
abbrev S1x9923 : Shape := ⟨2, ![1, 9923]⟩
abbrev S1 : Shape := ⟨1, ![1]⟩
abbrev S128x256 : Shape := ⟨2, ![128, 256]⟩
abbrev S128 : Shape := ⟨1, ![128]⟩
abbrev S64x128 : Shape := ⟨2, ![64, 128]⟩
abbrev S64 : Shape := ⟨1, ![64]⟩
abbrev S1x64 : Shape := ⟨2, ![1, 64]⟩
abbrev S_ : Shape := ⟨0, ![]⟩

class Facts : Prop where
  bcast_S_S6040x128 : S_.BroadcastsInDim S6040x128 (![] : Fin 0 → Fin S6040x128.rank)
  reducesTo_S6040x128_S_d0_1 : S6040x128.ReducesTo [0, 1] S_
  h_S_ : 0 < S_.numel
  bcast_S_S3883x128 : S_.BroadcastsInDim S3883x128 (![] : Fin 0 → Fin S3883x128.rank)
  reducesTo_S3883x128_S_d0_1 : S3883x128.ReducesTo [0, 1] S_
  bcast_S_S1x9923 : S_.BroadcastsInDim S1x9923 (![] : Fin 0 → Fin S1x9923.rank)
  reducesTo_S1x9923_S_d0_1 : S1x9923.ReducesTo [0, 1] S_
  bcast_S_S1 : S_.BroadcastsInDim S1 (![] : Fin 0 → Fin S1.rank)
  reducesTo_S1_S_d0 : S1.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_

variable [Facts]

def fn_part2 {F : FTy → Type} [FloatOps F] (main_arg8 : FVec F S64 .f32) (main_arg9 : FVec F S1x64 .f32) (main_arg10 : FVec F S1 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S1x64 .f32 := Host.absf main_arg9
  let main_cst_14 : FVec F S_ .f32 := constant S_ .f32 0x7F800000#32
  let main_v40 : FVec F S1x64 .f32 := broadcastInDim S1x64 ![] bcast_S_S1x64 main_cst_14
  let main_v41 : IVec S1x64 1 := cmpf .olt main_v39 main_v40
  let main_c_15 : IVec S_ 1 := constantI S_ 1 1#1
  let main_v42 : IVec S_ 1 := (fun x v => Host.reduce IntOp.andi x v reducesTo_S1x64_S_d0_1 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg5 : FVec F S128x256 .f32) (main_arg6 : FVec F S128 .f32) (main_arg7 : FVec F S64x128 .f32) (main_arg8 : FVec F S64 .f32) (main_arg9 : FVec F S1x64 .f32) (main_arg10 : FVec F S1 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S128x256 .f32 := Host.absf main_arg5
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S64x128 .f32 := Host.absf main_arg7
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg8 main_arg9 main_arg10 main_v33

def fn {F : FTy → Type} [FloatOps F] (main_arg0 : IVec S131072x2 32) (main_arg1 : FVec F S6040x128 .f32) (main_arg2 : FVec F S3883x128 .f32) (main_arg3 : FVec F S1x9923 .f32) (main_arg4 : FVec F S1 .f32) (main_arg5 : FVec F S128x256 .f32) (main_arg6 : FVec F S128 .f32) (main_arg7 : FVec F S64x128 .f32) (main_arg8 : FVec F S64 .f32) (main_arg9 : FVec F S1x64 .f32) (main_arg10 : FVec F S1 .f32) : IVec S_ 1 :=
  let main_v0 : FVec F S6040x128 .f32 := Host.absf main_arg1
  let main_cst : FVec F S_ .f32 := constant S_ .f32 0x7F800000#32
  let main_v1 : FVec F S6040x128 .f32 := broadcastInDim S6040x128 ![] bcast_S_S6040x128 main_cst
  let main_v2 : IVec S6040x128 1 := cmpf .olt main_v0 main_v1
  let main_c : IVec S_ 1 := constantI S_ 1 1#1
  let main_v3 : IVec S_ 1 := (fun x v => Host.reduce IntOp.andi x v reducesTo_S6040x128_S_d0_1 h_S_) main_v2 main_c
  let main_v4 : FVec F S3883x128 .f32 := Host.absf main_arg2
  let main_cst_0 : FVec F S_ .f32 := constant S_ .f32 0x7F800000#32
  let main_v5 : FVec F S3883x128 .f32 := broadcastInDim S3883x128 ![] bcast_S_S3883x128 main_cst_0
  let main_v6 : IVec S3883x128 1 := cmpf .olt main_v4 main_v5
  let main_c_1 : IVec S_ 1 := constantI S_ 1 1#1
  let main_v7 : IVec S_ 1 := (fun x v => Host.reduce IntOp.andi x v reducesTo_S3883x128_S_d0_1 h_S_) main_v6 main_c_1
  let main_v8 : IVec S_ 1 := andi main_v3 main_v7
  let main_v9 : FVec F S1x9923 .f32 := Host.absf main_arg3
  let main_cst_2 : FVec F S_ .f32 := constant S_ .f32 0x7F800000#32
  let main_v10 : FVec F S1x9923 .f32 := broadcastInDim S1x9923 ![] bcast_S_S1x9923 main_cst_2
  let main_v11 : IVec S1x9923 1 := cmpf .olt main_v9 main_v10
  let main_c_3 : IVec S_ 1 := constantI S_ 1 1#1
  let main_v12 : IVec S_ 1 := (fun x v => Host.reduce IntOp.andi x v reducesTo_S1x9923_S_d0_1 h_S_) main_v11 main_c_3
  let main_v13 : IVec S_ 1 := andi main_v8 main_v12
  let main_v14 : FVec F S1 .f32 := Host.absf main_arg4
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg5 main_arg6 main_arg7 main_arg8 main_arg9 main_arg10 main_v13 main_v16
-- ==== Kernel.lean ====
abbrev S131072x2 : Shape := ⟨2, ![131072, 2]⟩
abbrev S6040x128 : Shape := ⟨2, ![6040, 128]⟩
abbrev S3883x128 : Shape := ⟨2, ![3883, 128]⟩
abbrev S1x9923 : Shape := ⟨2, ![1, 9923]⟩
abbrev S1 : Shape := ⟨1, ![1]⟩
abbrev S128x256 : Shape := ⟨2, ![128, 256]⟩
abbrev S128 : Shape := ⟨1, ![128]⟩
abbrev S64x128 : Shape := ⟨2, ![64, 128]⟩
abbrev S64 : Shape := ⟨1, ![64]⟩
abbrev S1x64 : Shape := ⟨2, ![1, 64]⟩
abbrev S131072x1 : Shape := ⟨2, ![131072, 1]⟩
abbrev S131072 : Shape := ⟨1, ![131072]⟩
abbrev S_ : Shape := ⟨0, ![]⟩
abbrev S131072x128 : Shape := ⟨2, ![131072, 128]⟩
abbrev S131072x256 : Shape := ⟨2, ![131072, 256]⟩
abbrev S1x131072 : Shape := ⟨2, ![1, 131072]⟩
abbrev S256x128 : Shape := ⟨2, ![256, 128]⟩
abbrev S128x64 : Shape := ⟨2, ![128, 64]⟩
abbrev S1x128 : Shape := ⟨2, ![1, 128]⟩
abbrev S1x1 : Shape := ⟨2, ![1, 1]⟩
abbrev S2x131072 : Shape := ⟨2, ![2, 131072]⟩
abbrev S4096x256 : Shape := ⟨2, ![4096, 256]⟩
abbrev S1x4096 : Shape := ⟨2, ![1, 4096]⟩
abbrev S2x4096 : Shape := ⟨2, ![2, 4096]⟩
abbrev S4096x128 : Shape := ⟨2, ![4096, 128]⟩
abbrev S4096x64 : Shape := ⟨2, ![4096, 64]⟩
abbrev S4096 : Shape := ⟨1, ![4096]⟩
abbrev S4096x1 : Shape := ⟨2, ![4096, 1]⟩

abbrev nBuf : Space → Nat
  | .hbm => 81
  | .vmem => 12
  | .smem => 0
  | _ => 0

abbrev bufTy : (tb : Table) → Fin (tcTables nBuf tb) → BufTy
  | .hbm, ⟨0, _⟩ => ⟨S131072x2, .i32⟩
  | .hbm, ⟨1, _⟩ => ⟨S6040x128, .f32⟩
  | .hbm, ⟨2, _⟩ => ⟨S3883x128, .f32⟩
  | .hbm, ⟨3, _⟩ => ⟨S1x9923, .f32⟩
  | .hbm, ⟨4, _⟩ => ⟨S1, .f32⟩
  | .hbm, ⟨5, _⟩ => ⟨S128x256, .f32⟩
  | .hbm, ⟨6, _⟩ => ⟨S128, .f32⟩
  | .hbm, ⟨7, _⟩ => ⟨S64x128, .f32⟩
  | .hbm, ⟨8, _⟩ => ⟨S64, .f32⟩
  | .hbm, ⟨9, _⟩ => ⟨S1x64, .f32⟩
  | .hbm, ⟨10, _⟩ => ⟨S1, .f32⟩
  | .hbm, ⟨11, _⟩ => ⟨S131072x1, .i32⟩
  | .hbm, ⟨12, _⟩ => ⟨S131072, .i32⟩
  | .hbm, ⟨13, _⟩ => ⟨S131072x1, .i32⟩
  | .hbm, ⟨14, _⟩ => ⟨S131072, .i32⟩
  | .hbm, ⟨15, _⟩ => ⟨S6040x128, .bf16⟩
  | .hbm, ⟨16, _⟩ => ⟨S3883x128, .bf16⟩
  | .hbm, ⟨17, _⟩ => ⟨S_, .i32⟩
  | .hbm, ⟨18, _⟩ => ⟨S131072, .i32⟩
  | .hbm, ⟨19, _⟩ => ⟨S131072, .i1⟩
  | .hbm, ⟨20, _⟩ => ⟨S_, .i32⟩
  | .hbm, ⟨21, _⟩ => ⟨S131072, .i32⟩
  | .hbm, ⟨22, _⟩ => ⟨S131072, .i32⟩
  | .hbm, ⟨23, _⟩ => ⟨S131072, .i32⟩
  | .hbm, ⟨24, _⟩ => ⟨S131072x1, .i32⟩
  | .hbm, ⟨25, _⟩ => ⟨S131072x128, .bf16⟩
  | .hbm, ⟨26, _⟩ => ⟨S_, .i32⟩
  | .hbm, ⟨27, _⟩ => ⟨S131072, .i32⟩
  | .hbm, ⟨28, _⟩ => ⟨S131072, .i1⟩
  | .hbm, ⟨29, _⟩ => ⟨S_, .i32⟩
  | .hbm, ⟨30, _⟩ => ⟨S131072, .i32⟩
  | .hbm, ⟨31, _⟩ => ⟨S131072, .i32⟩
  | .hbm, ⟨32, _⟩ => ⟨S131072, .i32⟩
  | .hbm, ⟨33, _⟩ => ⟨S131072x1, .i32⟩
  | .hbm, ⟨34, _⟩ => ⟨S131072x128, .bf16⟩
  | .hbm, ⟨35, _⟩ => ⟨S131072x256, .bf16⟩
  | .hbm, ⟨36, _⟩ => ⟨S_, .i32⟩
  | .hbm, ⟨37, _⟩ => ⟨S131072, .i32⟩
  | .hbm, ⟨38, _⟩ => ⟨S131072, .i1⟩
  | .hbm, ⟨39, _⟩ => ⟨S_, .i32⟩
  | .hbm, ⟨40, _⟩ => ⟨S131072, .i32⟩
  | .hbm, ⟨41, _⟩ => ⟨S131072, .i32⟩
  | .hbm, ⟨42, _⟩ => ⟨S131072, .i32⟩
  | .hbm, ⟨43, _⟩ => ⟨S_, .i32⟩
  | .hbm, ⟨44, _⟩ => ⟨S131072, .i32⟩
  | .hbm, ⟨45, _⟩ => ⟨S131072, .i32⟩
  | .hbm, ⟨46, _⟩ => ⟨S131072x1, .i32⟩
  | .hbm, ⟨47, _⟩ => ⟨S131072x1, .i32⟩
  | .hbm, ⟨48, _⟩ => ⟨S131072x2, .i32⟩
  | .hbm, ⟨49, _⟩ => ⟨S131072, .f32⟩
  | .hbm, ⟨50, _⟩ => ⟨S_, .i32⟩
  | .hbm, ⟨51, _⟩ => ⟨S131072, .i32⟩
  | .hbm, ⟨52, _⟩ => ⟨S131072, .i32⟩
  | .hbm, ⟨53, _⟩ => ⟨S_, .i32⟩
  | .hbm, ⟨54, _⟩ => ⟨S131072, .i32⟩
  | .hbm, ⟨55, _⟩ => ⟨S131072, .i1⟩
  | .hbm, ⟨56, _⟩ => ⟨S_, .i32⟩
  | .hbm, ⟨57, _⟩ => ⟨S131072, .i32⟩
  | .hbm, ⟨58, _⟩ => ⟨S131072, .i32⟩
  | .hbm, ⟨59, _⟩ => ⟨S131072, .i32⟩
  | .hbm, ⟨60, _⟩ => ⟨S_, .i32⟩
  | .hbm, ⟨61, _⟩ => ⟨S131072, .i32⟩
  | .hbm, ⟨62, _⟩ => ⟨S131072, .i32⟩
  | .hbm, ⟨63, _⟩ => ⟨S131072x1, .i32⟩
  | .hbm, ⟨64, _⟩ => ⟨S131072x1, .i32⟩
  | .hbm, ⟨65, _⟩ => ⟨S131072x2, .i32⟩
  | .hbm, ⟨66, _⟩ => ⟨S131072, .f32⟩
  | .hbm, ⟨67, _⟩ => ⟨S131072, .f32⟩
  | .hbm, ⟨68, _⟩ => ⟨S_, .f32⟩
  | .hbm, ⟨69, _⟩ => ⟨S131072, .f32⟩
  | .hbm, ⟨70, _⟩ => ⟨S131072, .f32⟩
  | .hbm, ⟨71, _⟩ => ⟨S1x131072, .f32⟩
  | .hbm, ⟨72, _⟩ => ⟨S256x128, .f32⟩
  | .hbm, ⟨73, _⟩ => ⟨S256x128, .bf16⟩
  | .hbm, ⟨74, _⟩ => ⟨S128x64, .f32⟩
  | .hbm, ⟨75, _⟩ => ⟨S128x64, .bf16⟩
  | .hbm, ⟨76, _⟩ => ⟨S1x128, .f32⟩
  | .hbm, ⟨77, _⟩ => ⟨S1x64, .f32⟩
  | .hbm, ⟨78, _⟩ => ⟨S1x1, .f32⟩
  | .hbm, ⟨79, _⟩ => ⟨S2x131072, .f32⟩
  | .hbm, ⟨80, _⟩ => ⟨S131072x2, .f32⟩
  | .local _ .vmem, ⟨0, _⟩ => ⟨S4096x256, .bf16⟩
  | .local _ .vmem, ⟨1, _⟩ => ⟨S4096x256, .bf16⟩
  | .local _ .vmem, ⟨2, _⟩ => ⟨S1x4096, .f32⟩
  | .local _ .vmem, ⟨3, _⟩ => ⟨S1x4096, .f32⟩
  | .local _ .vmem, ⟨4, _⟩ => ⟨S256x128, .bf16⟩
  | .local _ .vmem, ⟨5, _⟩ => ⟨S1x128, .f32⟩
  | .local _ .vmem, ⟨6, _⟩ => ⟨S128x64, .bf16⟩
  | .local _ .vmem, ⟨7, _⟩ => ⟨S1x64, .f32⟩
  | .local _ .vmem, ⟨8, _⟩ => ⟨S1x64, .f32⟩
  | .local _ .vmem, ⟨9, _⟩ => ⟨S1x1, .f32⟩
  | .local _ .vmem, ⟨10, _⟩ => ⟨S2x4096, .f32⟩
  | .local _ .vmem, ⟨11, _⟩ => ⟨S2x4096, .f32⟩
  | _, _ => ⟨S131072x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_1 : Ref sig .tc := ⟨.hbm, 26, rfl⟩
abbrev main_v13 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_9 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S131072x2_S131072x1_0_0 : S131072x2.Slices ![0, 0] S131072x1
  shapeCasts_S131072x1_S131072 : S131072x1.ShapeCasts S131072
  slices_S131072x2_S131072x1_0_1 : S131072x2.Slices ![0, 1] S131072x1
  bitsLt_bf16_f32 : FTy.bits .bf16 < FTy.bits .f32
  bcast_S_S131072 : S_.BroadcastsInDim S131072 (![] : Fin 0 → Fin S131072.rank)
  bcast_S131072_S131072x1_0 : S131072.BroadcastsInDim S131072x1 (![0] : Fin 1 → Fin S131072x1.rank)
  concatenates_S131072x128_S131072x128_S131072x256_d1 : Shape.Concatenates [S131072x128, S131072x128] S131072x256 1
  concatenates_S131072x1_S131072x1_S131072x2_d1 : Shape.Concatenates [S131072x1, S131072x1] S131072x2 1
  shapeCasts_S1_S_ : S1.ShapeCasts S_
  bcast_S131072_S1x131072_1 : S131072.BroadcastsInDim S1x131072 (![1] : Fin 1 → Fin S1x131072.rank)
  transposes_S128x256_S256x128_1_0 : S128x256.Transposes [1, 0] S256x128
  transposes_S64x128_S128x64_1_0 : S64x128.Transposes [1, 0] S128x64
  shapeCasts_S128_S1x128 : S128.ShapeCasts S1x128
  shapeCasts_S64_S1x64 : S64.ShapeCasts S1x64
  shapeCasts_S1_S1x1 : S1.ShapeCasts S1x1
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  reduces_S4096x64_S4096 : S4096x64.Reduces [1] S4096
  shapeCasts_S4096_S4096x1 : S4096.ShapeCasts S4096x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  transposes_S4096x1_p1_0_S1x4096 : S4096x1.Transposes [1, 0] S1x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  concatenates_S1x4096_S1x4096_S2x4096_d0 : Shape.Concatenates [S1x4096, S1x4096] S2x4096 0
  inb_S2x4096_S2x4096_0_0 : ∀ a, (![0, 0] : Fin 2 → Nat) a + S2x4096.size a ≤ S2x4096.size a
  h_S2x4096 : 0 < S2x4096.numel
  transposes_S2x131072_S131072x2_1_0 : S2x131072.Transposes [1, 0] S131072x2
  gather_S6040x128_S131072x1_S131072x128_1_0_n_n_0_1_1128_wf : GatherDims.WF S6040x128 S131072x1 S131072x128 [1] [0] [] [0] [] 1 ![1, 128]
  gather_S3883x128_S131072x1_S131072x128_1_0_n_n_0_1_1128_wf : GatherDims.WF S3883x128 S131072x1 S131072x128 [1] [0] [] [0] [] 1 ![1, 128]
  gather_S1x9923_S131072x2_S131072_n_01_n_n_01_1_11_wf : GatherDims.WF S1x9923 S131072x2 S131072 [] [0, 1] [] [0, 1] [] 1 ![1, 1]
  dot_S4096x256_S256x128_S4096x128_1_0_0_1_n_n_wf : DotDims.WF S4096x256 S256x128 S4096x128 [1] [0] [0] [1] [] []
  dot_S4096x128_S128x64_S4096x64_1_0_0_1_n_n_wf : DotDims.WF S4096x128 S128x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S131072x256.size a
  hwx0_0 : ∀ i : grid0.Coords, EltTy.bits .bf16 = 32 ∨ (Rect.block (s := S131072x256) S4096x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x131072.size a
  hwx0_1 : ∀ i : grid0.Coords, EltTy.bits .f32 = 32 ∨ (Rect.block (s := S1x131072) S1x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .bf16 = 32 ∨ (Rect.block (s := S256x128) S256x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .bf16 = 32 ∨ (Rect.block (s := S128x64) S128x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2x4096.size a ≤ S2x131072.size a
  hwx0_8 : ∀ i : grid0.Coords, EltTy.bits .f32 = 32 ∨ (Rect.block (s := S2x131072) S2x4096.size (cc0_transform_8 i) (hinb0_8 i)).WholeWords (EltTy.packing .f32)

variable [Facts₀]

def gather_S6040x128_S131072x1_S131072x128_1_0_n_n_0_1_1128 : GatherDims S6040x128 S131072x1 S131072x128 where
  offsetDims := [1]
  collapsedSliceDims := [0]
  operandBatchingDims := []
  startIndicesBatchingDims := []
  startIndexMap := [0]
  indexVectorDim := 1
  sliceSizes := ![1, 128]
  wf := gather_S6040x128_S131072x1_S131072x128_1_0_n_n_0_1_1128_wf
def gather_S3883x128_S131072x1_S131072x128_1_0_n_n_0_1_1128 : GatherDims S3883x128 S131072x1 S131072x128 where
  offsetDims := [1]
  collapsedSliceDims := [0]
  operandBatchingDims := []
  startIndicesBatchingDims := []
  startIndexMap := [0]
  indexVectorDim := 1
  sliceSizes := ![1, 128]
  wf := gather_S3883x128_S131072x1_S131072x128_1_0_n_n_0_1_1128_wf
def gather_S1x9923_S131072x2_S131072_n_01_n_n_01_1_11 : GatherDims S1x9923 S131072x2 S131072 where
  offsetDims := []
  collapsedSliceDims := [0, 1]
  operandBatchingDims := []
  startIndicesBatchingDims := []
  startIndexMap := [0, 1]
  indexVectorDim := 1
  sliceSizes := ![1, 1]
  wf := gather_S1x9923_S131072x2_S131072_n_01_n_n_01_1_11_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf

abbrev win0_0 : Pipeline.Window sig grid0 :=
  Pipeline.Window.ofSpec (Memref.whole main_v20) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v49) S1x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v51) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v54) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v53) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v55) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v56) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v57) S2x4096.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S131072x2 : Shape := ⟨2, ![131072, 2]⟩
abbrev S6040x128 : Shape := ⟨2, ![6040, 128]⟩
abbrev S3883x128 : Shape := ⟨2, ![3883, 128]⟩
abbrev S1x9923 : Shape := ⟨2, ![1, 9923]⟩
abbrev S1 : Shape := ⟨1, ![1]⟩
abbrev S128x256 : Shape := ⟨2, ![128, 256]⟩
abbrev S128 : Shape := ⟨1, ![128]⟩
abbrev S64x128 : Shape := ⟨2, ![64, 128]⟩
abbrev S64 : Shape := ⟨1, ![64]⟩
abbrev S1x64 : Shape := ⟨2, ![1, 64]⟩
abbrev S131072x1 : Shape := ⟨2, ![131072, 1]⟩
abbrev S131072 : Shape := ⟨1, ![131072]⟩
abbrev S_ : Shape := ⟨0, ![]⟩
abbrev S131072x128 : Shape := ⟨2, ![131072, 128]⟩
abbrev S131072x256 : Shape := ⟨2, ![131072, 256]⟩
abbrev S256x128 : Shape := ⟨2, ![256, 128]⟩
abbrev S1x128 : Shape := ⟨2, ![1, 128]⟩
abbrev S128x64 : Shape := ⟨2, ![128, 64]⟩
abbrev S131072x64 : Shape := ⟨2, ![131072, 64]⟩
abbrev S64x1 : Shape := ⟨2, ![64, 1]⟩
abbrev S1x1 : Shape := ⟨2, ![1, 1]⟩

abbrev nBuf : Space → Nat
  | .hbm => 107
  | .vmem => 0
  | .smem => 0
  | _ => 0

abbrev bufTy : (tb : Table) → Fin (tcTables nBuf tb) → BufTy
  | .hbm, ⟨0, _⟩ => ⟨S131072x2, .i32⟩
  | .hbm, ⟨1, _⟩ => ⟨S6040x128, .f32⟩
  | .hbm, ⟨2, _⟩ => ⟨S3883x128, .f32⟩
  | .hbm, ⟨3, _⟩ => ⟨S1x9923, .f32⟩
  | .hbm, ⟨4, _⟩ => ⟨S1, .f32⟩
  | .hbm, ⟨5, _⟩ => ⟨S128x256, .f32⟩
  | .hbm, ⟨6, _⟩ => ⟨S128, .f32⟩
  | .hbm, ⟨7, _⟩ => ⟨S64x128, .f32⟩
  | .hbm, ⟨8, _⟩ => ⟨S64, .f32⟩
  | .hbm, ⟨9, _⟩ => ⟨S1x64, .f32⟩
  | .hbm, ⟨10, _⟩ => ⟨S1, .f32⟩
  | .hbm, ⟨11, _⟩ => ⟨S131072x1, .i32⟩
  | .hbm, ⟨12, _⟩ => ⟨S131072, .i32⟩
  | .hbm, ⟨13, _⟩ => ⟨S131072x1, .i32⟩
  | .hbm, ⟨14, _⟩ => ⟨S131072, .i32⟩
  | .hbm, ⟨15, _⟩ => ⟨S_, .i32⟩
  | .hbm, ⟨16, _⟩ => ⟨S131072, .i32⟩
  | .hbm, ⟨17, _⟩ => ⟨S131072, .i1⟩
  | .hbm, ⟨18, _⟩ => ⟨S_, .i32⟩
  | .hbm, ⟨19, _⟩ => ⟨S131072, .i32⟩
  | .hbm, ⟨20, _⟩ => ⟨S131072, .i32⟩
  | .hbm, ⟨21, _⟩ => ⟨S131072, .i32⟩
  | .hbm, ⟨22, _⟩ => ⟨S131072x1, .i32⟩
  | .hbm, ⟨23, _⟩ => ⟨S131072x128, .f32⟩
  | .hbm, ⟨24, _⟩ => ⟨S_, .i32⟩
  | .hbm, ⟨25, _⟩ => ⟨S131072, .i32⟩
  | .hbm, ⟨26, _⟩ => ⟨S131072, .i1⟩
  | .hbm, ⟨27, _⟩ => ⟨S_, .i32⟩
  | .hbm, ⟨28, _⟩ => ⟨S131072, .i32⟩
  | .hbm, ⟨29, _⟩ => ⟨S131072, .i32⟩
  | .hbm, ⟨30, _⟩ => ⟨S131072, .i32⟩
  | .hbm, ⟨31, _⟩ => ⟨S131072x1, .i32⟩
  | .hbm, ⟨32, _⟩ => ⟨S131072x128, .f32⟩
  | .hbm, ⟨33, _⟩ => ⟨S131072x256, .f32⟩
  | .hbm, ⟨34, _⟩ => ⟨S256x128, .f32⟩
  | .hbm, ⟨35, _⟩ => ⟨S131072x128, .f32⟩
  | .hbm, ⟨36, _⟩ => ⟨S1x128, .f32⟩
  | .hbm, ⟨37, _⟩ => ⟨S131072x128, .f32⟩
  | .hbm, ⟨38, _⟩ => ⟨S131072x128, .f32⟩
  | .hbm, ⟨39, _⟩ => ⟨S_, .f32⟩
  | .hbm, ⟨40, _⟩ => ⟨S131072x128, .f32⟩
  | .hbm, ⟨41, _⟩ => ⟨S131072x128, .f32⟩
  | .hbm, ⟨42, _⟩ => ⟨S128x64, .f32⟩
  | .hbm, ⟨43, _⟩ => ⟨S131072x64, .f32⟩
  | .hbm, ⟨44, _⟩ => ⟨S1x64, .f32⟩
  | .hbm, ⟨45, _⟩ => ⟨S131072x64, .f32⟩
  | .hbm, ⟨46, _⟩ => ⟨S131072x64, .f32⟩
  | .hbm, ⟨47, _⟩ => ⟨S_, .f32⟩
  | .hbm, ⟨48, _⟩ => ⟨S131072x64, .f32⟩
  | .hbm, ⟨49, _⟩ => ⟨S131072x64, .f32⟩
  | .hbm, ⟨50, _⟩ => ⟨S64x1, .f32⟩
  | .hbm, ⟨51, _⟩ => ⟨S131072x1, .f32⟩
  | .hbm, ⟨52, _⟩ => ⟨S1x1, .f32⟩
  | .hbm, ⟨53, _⟩ => ⟨S131072x1, .f32⟩
  | .hbm, ⟨54, _⟩ => ⟨S131072x1, .f32⟩
  | .hbm, ⟨55, _⟩ => ⟨S_, .i32⟩
  | .hbm, ⟨56, _⟩ => ⟨S131072, .i32⟩
  | .hbm, ⟨57, _⟩ => ⟨S131072, .i1⟩
  | .hbm, ⟨58, _⟩ => ⟨S_, .i32⟩
  | .hbm, ⟨59, _⟩ => ⟨S131072, .i32⟩
  | .hbm, ⟨60, _⟩ => ⟨S131072, .i32⟩
  | .hbm, ⟨61, _⟩ => ⟨S131072, .i32⟩
  | .hbm, ⟨62, _⟩ => ⟨S_, .i32⟩
  | .hbm, ⟨63, _⟩ => ⟨S131072, .i32⟩
  | .hbm, ⟨64, _⟩ => ⟨S131072, .i32⟩
  | .hbm, ⟨65, _⟩ => ⟨S131072x1, .i32⟩
  | .hbm, ⟨66, _⟩ => ⟨S131072x1, .i32⟩
  | .hbm, ⟨67, _⟩ => ⟨S131072x2, .i32⟩
  | .hbm, ⟨68, _⟩ => ⟨S131072, .f32⟩
  | .hbm, ⟨69, _⟩ => ⟨S_, .i32⟩
  | .hbm, ⟨70, _⟩ => ⟨S131072, .i32⟩
  | .hbm, ⟨71, _⟩ => ⟨S131072, .i32⟩
  | .hbm, ⟨72, _⟩ => ⟨S_, .i32⟩
  | .hbm, ⟨73, _⟩ => ⟨S131072, .i32⟩
  | .hbm, ⟨74, _⟩ => ⟨S131072, .i1⟩
  | .hbm, ⟨75, _⟩ => ⟨S_, .i32⟩
  | .hbm, ⟨76, _⟩ => ⟨S131072, .i32⟩
  | .hbm, ⟨77, _⟩ => ⟨S131072, .i32⟩
  | .hbm, ⟨78, _⟩ => ⟨S131072, .i32⟩
  | .hbm, ⟨79, _⟩ => ⟨S_, .i32⟩
  | .hbm, ⟨80, _⟩ => ⟨S131072, .i32⟩
  | .hbm, ⟨81, _⟩ => ⟨S131072, .i32⟩
  | .hbm, ⟨82, _⟩ => ⟨S131072x1, .i32⟩
  | .hbm, ⟨83, _⟩ => ⟨S131072x1, .i32⟩
  | .hbm, ⟨84, _⟩ => ⟨S131072x2, .i32⟩
  | .hbm, ⟨85, _⟩ => ⟨S131072, .f32⟩
  | .hbm, ⟨86, _⟩ => ⟨S131072, .f32⟩
  | .hbm, ⟨87, _⟩ => ⟨S_, .f32⟩
  | .hbm, ⟨88, _⟩ => ⟨S131072, .f32⟩
  | .hbm, ⟨89, _⟩ => ⟨S131072, .f32⟩
  | .hbm, ⟨90, _⟩ => ⟨S131072x1, .f32⟩
  | .hbm, ⟨91, _⟩ => ⟨S131072x1, .f32⟩
  | .hbm, ⟨92, _⟩ => ⟨S_, .f32⟩
  | .hbm, ⟨93, _⟩ => ⟨S131072x1, .f32⟩
  | .hbm, ⟨94, _⟩ => ⟨S131072x1, .f32⟩
  | .hbm, ⟨95, _⟩ => ⟨S131072x1, .f32⟩
  | .hbm, ⟨96, _⟩ => ⟨S131072x1, .f32⟩
  | .hbm, ⟨97, _⟩ => ⟨S_, .f32⟩
  | .hbm, ⟨98, _⟩ => ⟨S131072x1, .f32⟩
  | .hbm, ⟨99, _⟩ => ⟨S131072x1, .f32⟩
  | .hbm, ⟨100, _⟩ => ⟨S_, .f32⟩
  | .hbm, ⟨101, _⟩ => ⟨S131072x1, .f32⟩
  | .hbm, ⟨102, _⟩ => ⟨S131072x1, .f32⟩
  | .hbm, ⟨103, _⟩ => ⟨S_, .f32⟩
  | .hbm, ⟨104, _⟩ => ⟨S131072x1, .f32⟩
  | .hbm, ⟨105, _⟩ => ⟨S131072x1, .f32⟩
  | .hbm, ⟨106, _⟩ => ⟨S131072x2, .f32⟩
  | _, _ => ⟨S131072x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call0_cst : Ref sig .tc := ⟨.hbm, 39, rfl⟩
abbrev main_call0_v0 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_call1_cst : Ref sig .tc := ⟨.hbm, 47, rfl⟩
abbrev main_call1_v0 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_3 : Ref sig .tc := ⟨.hbm, 55, rfl⟩
abbrev main_v36 : Ref sig .tc := ⟨.hbm, 56, rfl⟩
abbrev main_v37 : Ref sig .tc := ⟨.hbm, 57, rfl⟩
abbrev main_c_4 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_5 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_6 : Ref sig .tc := ⟨.hbm, 69, rfl⟩
abbrev main_v47 : Ref sig .tc := ⟨.hbm, 70, rfl⟩
abbrev main_v48 : Ref sig .tc := ⟨.hbm, 71, rfl⟩
abbrev main_c_7 : Ref sig .tc := ⟨.hbm, 72, rfl⟩
abbrev main_v49 : Ref sig .tc := ⟨.hbm, 73, rfl⟩
abbrev main_v50 : Ref sig .tc := ⟨.hbm, 74, rfl⟩
abbrev main_c_8 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_c_9 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_10 : Ref sig .tc := ⟨.hbm, 97, rfl⟩
abbrev main_v70 : Ref sig .tc := ⟨.hbm, 98, rfl⟩
abbrev main_v71 : Ref sig .tc := ⟨.hbm, 99, rfl⟩
abbrev main_cst_11 : Ref sig .tc := ⟨.hbm, 100, rfl⟩
abbrev main_v72 : Ref sig .tc := ⟨.hbm, 101, rfl⟩
abbrev main_v73 : Ref sig .tc := ⟨.hbm, 102, rfl⟩
abbrev main_cst_12 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩

abbrev nD : Nat := 1
abbrev τ : Topo := Topo.v7x

variable {F : FTy → Type} [FloatOps F]

class Facts₀ : Prop where
  slices_S131072x2_S131072x1_0_0 : S131072x2.Slices ![0, 0] S131072x1
  shapeCasts_S131072x1_S131072 : S131072x1.ShapeCasts S131072
  slices_S131072x2_S131072x1_0_1 : S131072x2.Slices ![0, 1] S131072x1
  bcast_S_S131072 : S_.BroadcastsInDim S131072 (![] : Fin 0 → Fin S131072.rank)
  bcast_S131072_S131072x1_0 : S131072.BroadcastsInDim S131072x1 (![0] : Fin 1 → Fin S131072x1.rank)
  concatenates_S131072x128_S131072x128_S131072x256_d1 : Shape.Concatenates [S131072x128, S131072x128] S131072x256 1
  transposes_S128x256_S256x128_1_0 : S128x256.Transposes [1, 0] S256x128
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  bcast_S_S131072x128 : S_.BroadcastsInDim S131072x128 (![] : Fin 0 → Fin S131072x128.rank)
  transposes_S64x128_S128x64_1_0 : S64x128.Transposes [1, 0] S128x64
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  bcast_S_S131072x64 : S_.BroadcastsInDim S131072x64 (![] : Fin 0 → Fin S131072x64.rank)
  transposes_S1x64_S64x1_1_0 : S1x64.Transposes [1, 0] S64x1
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  concatenates_S131072x1_S131072x1_S131072x2_d1 : Shape.Concatenates [S131072x1, S131072x1] S131072x2 1
  shapeCasts_S1_S_ : S1.ShapeCasts S_
  bcast_S_S131072x1 : S_.BroadcastsInDim S131072x1 (![] : Fin 0 → Fin S131072x1.rank)
  gather_S6040x128_S131072x1_S131072x128_1_0_n_n_0_1_1128_wf : GatherDims.WF S6040x128 S131072x1 S131072x128 [1] [0] [] [0] [] 1 ![1, 128]
  gather_S3883x128_S131072x1_S131072x128_1_0_n_n_0_1_1128_wf : GatherDims.WF S3883x128 S131072x1 S131072x128 [1] [0] [] [0] [] 1 ![1, 128]
  dot_S131072x256_S256x128_S131072x128_1_0_0_1_n_n_wf : DotDims.WF S131072x256 S256x128 S131072x128 [1] [0] [0] [1] [] []
  dot_S131072x128_S128x64_S131072x64_1_0_0_1_n_n_wf : DotDims.WF S131072x128 S128x64 S131072x64 [1] [0] [0] [1] [] []
  dot_S131072x64_S64x1_S131072x1_1_0_0_1_n_n_wf : DotDims.WF S131072x64 S64x1 S131072x1 [1] [0] [0] [1] [] []
  gather_S1x9923_S131072x2_S131072_n_01_n_n_01_1_11_wf : GatherDims.WF S1x9923 S131072x2 S131072 [] [0, 1] [] [0, 1] [] 1 ![1, 1]

variable [Facts₀]

def gather_S6040x128_S131072x1_S131072x128_1_0_n_n_0_1_1128 : GatherDims S6040x128 S131072x1 S131072x128 where
  offsetDims := [1]
  collapsedSliceDims := [0]
  operandBatchingDims := []
  startIndicesBatchingDims := []
  startIndexMap := [0]
  indexVectorDim := 1
  sliceSizes := ![1, 128]
  wf := gather_S6040x128_S131072x1_S131072x128_1_0_n_n_0_1_1128_wf
def gather_S3883x128_S131072x1_S131072x128_1_0_n_n_0_1_1128 : GatherDims S3883x128 S131072x1 S131072x128 where
  offsetDims := [1]
  collapsedSliceDims := [0]
  operandBatchingDims := []
  startIndicesBatchingDims := []
  startIndexMap := [0]
  indexVectorDim := 1
  sliceSizes := ![1, 128]
  wf := gather_S3883x128_S131072x1_S131072x128_1_0_n_n_0_1_1128_wf
def dot_S131072x256_S256x128_S131072x128_1_0_0_1_n_n : DotDims S131072x256 S256x128 S131072x128 where
  lhsContracting := [1]
  rhsContracting := [0]
  lhsNonContracting := [0]
  rhsNonContracting := [1]
  lhsBatch := []
  rhsBatch := []
  wf := dot_S131072x256_S256x128_S131072x128_1_0_0_1_n_n_wf
def dot_S131072x128_S128x64_S131072x64_1_0_0_1_n_n : DotDims S131072x128 S128x64 S131072x64 where
  lhsContracting := [1]
  rhsContracting := [0]
  lhsNonContracting := [0]
  rhsNonContracting := [1]
  lhsBatch := []
  rhsBatch := []
  wf := dot_S131072x128_S128x64_S131072x64_1_0_0_1_n_n_wf
def dot_S131072x64_S64x1_S131072x1_1_0_0_1_n_n : DotDims S131072x64 S64x1 S131072x1 where
  lhsContracting := [1]
  rhsContracting := [0]
  lhsNonContracting := [0]
  rhsNonContracting := [1]
  lhsBatch := []
  rhsBatch := []
  wf := dot_S131072x64_S64x1_S131072x1_1_0_0_1_n_n_wf
def gather_S1x9923_S131072x2_S131072_n_01_n_n_01_1_11 : GatherDims S1x9923 S131072x2 S131072 where
  offsetDims := []
  collapsedSliceDims := [0, 1]
  operandBatchingDims := []
  startIndicesBatchingDims := []
  startIndexMap := [0, 1]
  indexVectorDim := 1
  sliceSizes := ![1, 1]
  wf := gather_S1x9923_S131072x2_S131072_n_01_n_n_01_1_11_wf

class Facts : Prop extends Facts₀ where

variable [Facts]
-- ==== Proof.Spec.lean ====
/-
  The wide-and-deep score of one batch row, on the extended reals, and the result array built from it.

  A row has a 256-entry deep input d (two looked-up embedding rows side by side) and one wide score wd (two looked-up
  weights plus a bias). The deep branch is a three-layer perceptron:
      h1 j = max(Σ_i d i · w1 j i + b1 j, 0)       (128 units)
      h2 k = max(Σ_j h1 j · w2 k j + b2 k, 0)      (64 units)
      deep = Σ_k h2 k · w3 k + b3
  and the row's positive probability is  p = sigmoid(½ · (wd + deep)).  The result holds (1 − p, p) for every row.
  Everything is stated on curried functions of `Fin` coordinates, so that a block of rows and the whole batch share it.
-/
import Idealize.ShloMosaic.PureOps.Ideal
import Idealize.ShloMosaic.Lib.ValueIdx

noncomputable section

namespace Cert.WideDeep

open Idealize.ShloMosaic Idealize.ShloMosaic.ValueIdx

/-- The positive probability of one row: sigmoid(½ · (wd + deep)), deep the three-layer perceptron of `d`. The literals
    are kept as their f32 words (0, ½). -/
def probRow (d : Fin 256 → EReal) (wd : EReal) (w1 : Fin 128 → Fin 256 → EReal) (b1 : Fin 128 → EReal)
    (w2 : Fin 64 → Fin 128 → EReal) (b2 : Fin 64 → EReal) (w3 : Fin 64 → EReal) (b3 : EReal) : EReal :=
  Ideal.logistic (Ideal.ofBits .f32 0x3F000000#32 * (wd +
    ((∑ k : Fin 64, max ((∑ j : Fin 128, max ((∑ i : Fin 256, d i * w1 j i) + b1 j) (Ideal.ofBits .f32 0x00000000#32) * w2 k j) + b2 k)
        (Ideal.ofBits .f32 0x00000000#32) * w3 k) + b3)))

/-- The two result entries of a row with positive probability `p`: column 0 is 1 − p, column 1 is p. -/
def outEntry (p : EReal) (j : Fin 2) : EReal :=
  if j.val = 0 then Ideal.ofBits .f32 0x3F800000#32 - p else p

/-- The result array [131072, 2] as a function of the deep-input array, the wide scores and the six parameters. -/
def result (D : (⟨2, ![131072, 256]⟩ : Shape).Idx → EReal) (wide : (⟨1, ![131072]⟩ : Shape).Idx → EReal)
    (w1 : (⟨2, ![128, 256]⟩ : Shape).Idx → EReal) (b1 : (⟨1, ![128]⟩ : Shape).Idx → EReal)
    (w2 : (⟨2, ![64, 128]⟩ : Shape).Idx → EReal) (b2 : (⟨1, ![64]⟩ : Shape).Idx → EReal)
    (w3 : (⟨2, ![1, 64]⟩ : Shape).Idx → EReal) (b3 : (⟨1, ![1]⟩ : Shape).Idx → EReal) :
    (⟨2, ![131072, 2]⟩ : Shape).Idx → EReal := fun i =>
  outEntry (probRow (fun k => D (ix2 (i 0) k)) (wide (ix1 (i 0))) (fun j k => w1 (ix2 j k)) (fun j => b1 (ix1 j))
    (fun j k => w2 (ix2 j k)) (fun j => b2 (ix1 j)) (fun k => w3 (ix2 (0 : Fin 1) k)) (b3 (ix1 (0 : Fin 1)))) (i 1)

/-- The same numbers laid out [2, 131072] (rows along the second axis): what the kernel's windows tile. -/
def resultT (D : (⟨2, ![131072, 256]⟩ : Shape).Idx → EReal) (wide : (⟨1, ![131072]⟩ : Shape).Idx → EReal)
    (w1 : (⟨2, ![128, 256]⟩ : Shape).Idx → EReal) (b1 : (⟨1, ![128]⟩ : Shape).Idx → EReal)
    (w2 : (⟨2, ![64, 128]⟩ : Shape).Idx → EReal) (b2 : (⟨1, ![64]⟩ : Shape).Idx → EReal)
    (w3 : (⟨2, ![1, 64]⟩ : Shape).Idx → EReal) (b3 : (⟨1, ![1]⟩ : Shape).Idx → EReal) :
    (⟨2, ![2, 131072]⟩ : Shape).Idx → EReal := fun i =>
  outEntry (probRow (fun k => D (ix2 (i 1) k)) (wide (ix1 (i 1))) (fun j k => w1 (ix2 j k)) (fun j => b1 (ix1 j))
    (fun j k => w2 (ix2 j k)) (fun j => b2 (ix1 j)) (fun k => w3 (ix2 (0 : Fin 1) k)) (b3 (ix1 (0 : Fin 1)))) (i 0)

end Cert.WideDeep

end
-- ==== Proof.LibStraightThrough.lean ====
/-
  Laws on the extended reals for a weight used through the "straight-through" form and for a sigmoid written out.

  • The f32 word 0x3F800000 is the number 1 and the f32 word 0x7F800000 is +∞.
  • An extended real x with |x| = max(x, -x) < +∞ is a real number (the finiteness test a precondition states per entry).
  • For a REAL number w and ANY extended real q:  w + (q - w) = q.  At q = ±∞ both sides are q, because adding or
    subtracting a real leaves an infinity unchanged; so a program that multiplies by  w + (q(w) - w)  multiplies by
    q(w) as soon as w is finite, with nothing asked of q(w).
  • 1 / (1 + e^(-g)) written with the f32 word 1.0 is the sigmoid of g, on every extended real.
-/
import Idealize.ShloMosaic.PureOps.Ideal
import Idealize.ShloMosaic.PureOps.IdealRules

noncomputable section

namespace Cert.LibStraightThrough

open Idealize.ShloMosaic

/-- The f32 word 0x3F800000 is the number 1. -/
theorem one_f32 : Ideal.ofBits .f32 0x3F800000#32 = 1 := IdealRules.sign_bit.ideal_onePat .f32

/-- The f32 word 0x7F800000 is +∞. -/
theorem inf_f32 : Ideal.ofBits .f32 0x7F800000#32 = ⊤ := by simp [Ideal.ofBits, Ideal.ieee]

/-- An extended real whose absolute value compares below the f32 word +∞ is a real number. -/
theorem real_of_abs_lt_inf (x : EReal)
    (h : Ideal.cmp .olt (max x (-x)) (Ideal.ofBits .f32 0x7F800000#32) = 1#1) : ∃ r : ℝ, x = (r : EReal) := by
  rw [inf_f32] at h
  induction x with
  | bot => exact absurd h (by simp [Ideal.cmp])
  | top => exact absurd h (by simp [Ideal.cmp])
  | coe r => exact ⟨r, rfl⟩

/-- For a real `w` and any extended real `q`: w + (q - w) = q. -/
theorem add_sub_cancel_real (w : ℝ) (q : EReal) : (w : EReal) + (q - (w : EReal)) = q := by
  induction q with
  | bot => rw [EReal.bot_sub, EReal.add_bot]
  | top => rw [EReal.top_sub_coe, EReal.add_top_of_ne_bot (EReal.coe_ne_bot w)]
  | coe r => rw [← EReal.coe_sub, ← EReal.coe_add]; exact congrArg _ (by ring)

/-- 1 / (1 + e^(-g)) written with the f32 word 1.0 is the sigmoid of g, on every extended real. -/
theorem logistic_spelt (g : EReal) :
    Ideal.div (Ideal.ofBits .f32 0x3F800000#32) (Ideal.ofBits .f32 0x3F800000#32 + Ideal.exp (-g)) = Ideal.logistic g := by
  rw [one_f32]; rfl

end Cert.LibStraightThrough

end
-- ==== Proof.LibColumnRow.lean ====
/-
  Small layout facts, read at coordinates.

  • Two indices of a rank-1 or rank-2 array with the same coordinates are the same index.
  • A vector kept as a column: an [a] array cast to [a, 1] reads i at (i, 0) — a shape cast keeps the row-major
    position, and (i, 0) of a one-column array sits at position i·1 + 0 = i.
  • A column turned into a row: an [a, 1] array transposed to [1, a] reads (i, 0) at (0, i).
-/
import Idealize.ShloMosaic.Lib.Pipeline.Value
import Idealize.ShloMosaic.Lib.ValueIdx

namespace Cert.LibColumnRow

open Idealize.ShloMosaic Idealize.ShloMosaic.ValueIdx

/-- Two rank-1 indices with the same coordinate are the same index. -/
theorem idx1_ext {a : ℕ} (f g : (⟨1, ![a]⟩ : Shape).Idx) (h0 : (f 0).val = (g 0).val) : f = g :=
  funext fun d => Fin.ext (by match d with | ⟨0, _⟩ => exact h0)

/-- Two rank-2 indices with the same coordinates are the same index. -/
theorem idx2_ext {a b : ℕ} (f g : (⟨2, ![a, b]⟩ : Shape).Idx) (h0 : (f 0).val = (g 0).val) (h1 : (f 1).val = (g 1).val) :
    f = g := funext fun d => Fin.ext (by match d with | ⟨0, _⟩ => exact h0 | ⟨1, _⟩ => exact h1)

/-- A vector kept as a column: an `[a]` array cast to `[a, 1]` reads, at `(i, 0)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (z : Fin 1) :
    shapeCast ⟨2, ![a, 1]⟩ x h (ix2 i z) = x (ix1 i) :=
  shapeCast_apply x h _ _ (by
    rw [Shape.rowMajor_val_two, Shape.rowMajor_val_one]
    show i.val = i.val * 1 + z.val
    have := z.isLt; omega)

/-- A column turned into a row: an `[a, 1]` array transposed to `[1, a]` reads, at `(0, i)`, the operand at `(i, 0)`. -/
theorem transpose_a1_1a_apply {α : Type} {a : ℕ} (x : (⟨2, ![a, 1]⟩ : Shape).Idx → α)
    (h : (⟨2, ![a, 1]⟩ : Shape).Transposes [1, 0] ⟨2, ![1, a]⟩) (z : Fin 1) (i : Fin a) :
    transpose ⟨2, ![1, a]⟩ [1, 0] x h (ix2 z i) = x (ix2 i z) :=
  transpose_apply [1, 0] x h (ix2 z i) (ix2 i z) (fun b => by match b with | ⟨0, _⟩ => rfl | ⟨1, _⟩ => rfl)

end Cert.LibColumnRow
-- ==== Proof.RefValue.lean ====
/-
  The reference program's result, entry by entry, is the wide-and-deep score of Spec.lean.

  The reference computes three dense layers as whole matrix products over all 131072 rows, adds the wide score, halves,
  takes the sigmoid written out as 1 / (1 + e^(−z)) and puts (1 − p, p) side by side. Read at row r this is exactly
  `probRow` of row r of the deep input and entry r of the wide score: every matrix product is a sum over its one
  contracted axis, every bias a broadcast, and the written-out sigmoid is the sigmoid on every extended real.
  The deep input (two gathers side by side) and the wide score (two gathers and a bias) are kept as whole arrays.
-/
import proofs.«125932_j23029614641371_2_alg».proof.Proof.Gen.ReferenceIdeal.Read
import proofs.«125932_j23029614641371_2_alg».proof.Proof.Spec
import proofs.«125932_j23029614641371_2_alg».proof.Proof.LibStraightThrough
import proofs.«125932_j23029614641371_2_alg».proof.Proof.LibColumnRow

noncomputable section

namespace Cert.ReferenceIdeal.RefValue

open Cert.ReferenceIdeal Cert.ReferenceIdeal.Gen Cert.ReferenceIdeal.Read Idealize.ShloMosaic Idealize.ShloMosaic.ValueIdx Cert.WideDeep Cert.LibColumnRow

section Indices
variable (r : Fin 131072)

theorem l32 (z : Fin 1) (k : Fin 64) : lidx_main_v32 (ix2 r z) k = ix2 r k := idx2_ext _ _ rfl rfl
theorem r32 (z : Fin 1) (k : Fin 64) : ridx_main_v32 (ix2 r z) k = ix2 k z := idx2_ext _ _ rfl rfl
theorem i31 (z : Fin 1) (k : Fin 64) : idx_main_v31 (ix2 k z) = ix2 z k := idx2_ext _ _ rfl rfl
theorem l26 (k : Fin 64) (j : Fin 128) : lidx_main_v26 (ix2 r k) j = ix2 r j := idx2_ext _ _ rfl rfl
theorem r26 (k : Fin 64) (j : Fin 128) : ridx_main_v26 (ix2 r k) j = ix2 j k := idx2_ext _ _ rfl rfl
theorem i25 (k : Fin 64) (j : Fin 128) : idx_main_v25 (ix2 j k) = ix2 k j := idx2_ext _ _ rfl rfl
theorem i28 (k : Fin 64) : idx_main_v28 (ix2 r k) = ix2 (0 : Fin 1) k := idx2_ext _ _ rfl rfl
theorem i27 (z : Fin 1) (k : Fin 64) : idx_main_v27 (ix2 z k) = ix1 k := idx1_ext _ _ rfl
theorem l20 (j : Fin 128) (i : Fin 256) : lidx_main_v20 (ix2 r j) i = ix2 r i := idx2_ext _ _ rfl rfl
theorem r20 (j : Fin 128) (i : Fin 256) : ridx_main_v20 (ix2 r j) i = ix2 i j := idx2_ext _ _ rfl rfl
theorem i19 (j : Fin 128) (i : Fin 256) : idx_main_v19 (ix2 i j) = ix2 j i := idx2_ext _ _ rfl rfl
theorem i22 (j : Fin 128) : idx_main_v22 (ix2 r j) = ix2 (0 : Fin 1) j := idx2_ext _ _ rfl rfl
theorem i21 (z : Fin 1) (j : Fin 128) : idx_main_v21 (ix2 z j) = ix1 j := idx1_ext _ _ rfl
theorem i34 (z : Fin 1) : idx_main_v34 (ix2 r z) = ix2 (0 : Fin 1) (0 : Fin 1) := idx2_ext _ _ rfl rfl
theorem i33 : idx_main_v33 (ix2 (0 : Fin 1) (0 : Fin 1)) = ix1 (0 : Fin 1) := idx1_ext _ _ rfl
theorem i64 (z : Fin 1) : idx_main_v64 (ix2 r z) = ix1 r := idx1_ext _ _ rfl

end Indices

variable (x0 : (⟨S131072x2, .i32⟩ : BufTy).Contents (Elt Ideal)) (x1 : (⟨S6040x128, .f32⟩ : BufTy).Contents (Elt Ideal))
  (x2 : (⟨S3883x128, .f32⟩ : BufTy).Contents (Elt Ideal)) (x3 : (⟨S1x9923, .f32⟩ : BufTy).Contents (Elt Ideal))
  (x4 : (⟨S1, .f32⟩ : BufTy).Contents (Elt Ideal)) (x5 : (⟨S128x256, .f32⟩ : BufTy).Contents (Elt Ideal))
  (x6 : (⟨S128, .f32⟩ : BufTy).Contents (Elt Ideal)) (x7 : (⟨S64x128, .f32⟩ : BufTy).Contents (Elt Ideal))
  (x8 : (⟨S64, .f32⟩ : BufTy).Contents (Elt Ideal)) (x9 : (⟨S1x64, .f32⟩ : BufTy).Contents (Elt Ideal))
  (x10 : (⟨S1, .f32⟩ : BufTy).Contents (Elt Ideal))

/-- Row r of the reference's positive-probability column is `probRow` of row r of the deep input and wide score. -/
theorem prob_eq (r : Fin 131072) (z : Fin 1) :
    val_main_v73 (F := Ideal) x0 x1 x2 x3 x4 x5 x6 x7 x8 x9 x10 (ix2 r z)
      = probRow (fun k => val_main_v18 (F := Ideal) x0 x1 x2 (ix2 r k)) (val_main_v63 (F := Ideal) x0 x3 x4 (ix1 r))
          (fun j k => x5 (ix2 j k)) (fun j => x6 (ix1 j)) (fun j k => x7 (ix2 j k)) (fun j => x8 (ix1 j))
          (fun k => x9 (ix2 (0 : Fin 1) k)) (x10 (ix1 (0 : Fin 1))) := by
  obtain rfl : z = 0 := Subsingleton.elim _ _
  rw [val_main_v73_apply, val_main_v72_apply, val_main_cst_11_apply, val_main_v71_apply, val_main_v70_apply,
    val_main_cst_10_apply, val_main_v69_apply, val_main_v68_apply, val_main_v67_apply, val_main_v66_apply,
    val_main_cst_apply, val_main_v65_apply, val_main_v64_apply, val_main_v35_apply, val_main_v32_apply,
    val_main_v34_apply, val_main_v33_apply]
  simp only [val_main_v30_apply, val_main_v29_apply, val_main_v26_apply, val_main_v28_apply, val_main_v27_apply,
    val_main_call1_v0_apply, val_main_call1_cst_apply, val_main_v31_apply, val_main_v25_apply,
    val_main_v24_apply, val_main_v23_apply, val_main_v20_apply, val_main_v22_apply, val_main_v21_apply,
    val_main_call0_v0_apply, val_main_call0_cst_apply, val_main_v19_apply,
    l32, r32, i31, l26, r26, i25, i28, i27, l20, r20, i19, i22, i21, i34, i33, i64]
  unfold probRow
  exact Cert.LibStraightThrough.logistic_spelt _

/-- The reference's result array is `result` of its deep-input array and its wide-score array. -/
theorem result_eq :
    val_main_v76 (F := Ideal) x0 x1 x2 x3 x4 x5 x6 x7 x8 x9 x10
      = result (val_main_v18 (F := Ideal) x0 x1 x2) (val_main_v63 (F := Ideal) x0 x3 x4) x5 x6 x7 x8 x9 x10 := by
  funext i
  obtain ⟨r, j, rfl⟩ : ∃ (r : Fin 131072) (j : Fin 2), i = ix2 r j := ⟨i 0, i 1, eq_ix2 i⟩
  unfold val_main_v76 result outEntry
  match j with
  | ⟨0, _⟩ =>
    refine Eq.trans ?_ (if_pos rfl).symm
    refine (concatenate_pair_apply_left (t := S131072x2) (s₁ := S131072x1) (s₂ := S131072x1) (1 : Fin 2) _ _ concatenates_S131072x1_S131072x1_S131072x2_d1 _ rfl
      (ix2 r (0 : Fin 1)) (fun b => by match b with | ⟨0, _⟩ => rfl | ⟨1, _⟩ => rfl)).trans ?_
    rw [val_main_v75_apply, val_main_v74_apply, val_main_cst_12_apply, prob_eq]
    rfl
  | ⟨1, _⟩ =>
    refine Eq.trans ?_ (if_neg (show ¬ (1 : ℕ) = 0 from Nat.one_ne_zero)).symm
    refine (concatenate_pair_apply_right (t := S131072x2) (s₁ := S131072x1) (s₂ := S131072x1) (1 : Fin 2) _ _ concatenates_S131072x1_S131072x1_S131072x2_d1 _ rfl rfl
      (ix2 r (0 : Fin 1)) (fun b hb => by match b with | ⟨0, _⟩ => rfl | ⟨1, _⟩ => exact absurd rfl hb) rfl).trans ?_
    exact prob_eq x0 x1 x2 x3 x4 x5 x6 x7 x8 x9 x10 r 0

end Cert.ReferenceIdeal.RefValue

end
-- ==== Proof.LibPlainMatmul.lean ====
/-
  A plain matrix product read at an entry. For an M×K left operand and a K×N right operand contracted over the one
  shared axis (left axis 1 against right axis 0, no batch axis), the exact product into a zero accumulator has, at row r
  and column c, the value  Σ_k lhs(r, k) · rhs(k, c): the operand indices at output index (r, c) and contraction position
  k are (r, k) and (k, c).
-/
import Idealize.ShloMosaic.PureOps.Ideal.Laws
import Idealize.ShloMosaic.Lib.ValueIdx

noncomputable section

namespace PlainMatmul

open Idealize.ShloMosaic Idealize.ShloMosaic.ValueIdx

variable {M K N : ℕ}

/-- The left operand's row is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The product into the zero accumulator, at (r, c), is Σ_k lhs(r, k) · rhs(k, c). -/
theorem apply_zero {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant (F := Ideal) ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end PlainMatmul

end
-- ==== Proof.LibDenseLayer.lean ====
/-
  A dense layer with a rectified-linear activation, read at an entry, at the exact (extended-real) values.

  For an M×K matrix X, a K×N matrix W and a bias kept as one row [1, N] that is copied into every row of the product,
  the entry (r, c) of  max(X·W + bias, z)  is  max(Σ_k X(r, k)·W(k, c) + bias(0, c), z).
  Beside it: a [1, 1] array copied out to [a, b] reads its one entry everywhere.
-/
import Idealize.ShloMosaic.Lib.ValueLayout
import Idealize.ShloMosaic.PureOps.Ideal.Laws
import proofs.«125932_j23029614641371_2_alg».proof.Proof.LibPlainMatmul

noncomputable section

namespace Cert.LibDenseLayer

open Idealize.ShloMosaic Idealize.ShloMosaic.ValueIdx

/-- A `[1, 1]` array broadcast to `[a, b]` reads, at `(p, q)`, the operand's one entry. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

/-- The entry (r, c) of max(X·W + bias row, z) is max(Σ_k X(r, k)·W(k, c) + bias(0, c), z). -/
theorem relu_dense_apply {M K N : ℕ} {φ₁ φ₂ : FTy} (X : FVec Ideal ⟨2, ![M, K]⟩ φ₁) (W : FVec Ideal ⟨2, ![K, N]⟩ φ₂)
    (bias : FVec Ideal ⟨2, ![1, N]⟩ .f32) (hb : (⟨2, ![1, N]⟩ : Shape).Broadcasts ⟨2, ![M, N]⟩) (z : EReal)
    (r : Fin M) (c : Fin N) :
    maximumf (addf (FloatOps.matmul (DotDims.plain M K N) none X W (constant (F := Ideal) ⟨2, ![M, N]⟩ .f32 0x00000000#32))
        (broadcastTo ⟨2, ![M, N]⟩ bias hb)) (broadcast ⟨2, ![M, N]⟩ z) (ix2 r c)
      = max ((∑ k : Fin K, X (ix2 r k) * W (ix2 k c)) + bias (ix2 (0 : Fin 1) c)) z := by
  rw [maximumf_apply, addf_apply, PlainMatmul.apply_zero, broadcastTo_1b_ab_apply]
  rfl

end Cert.LibDenseLayer

end
-- ==== Proof.BodyValue.lean ====
/-
  What the kernel body stores for one block of 4096 rows, entry by entry.

  The body reads a [4096, 256] block of deep inputs, a [1, 4096] block of wide scores and the six parameter arrays
  (the two weight matrices already transposed to [in, out], the biases as rows), runs the two dense layers as matrix
  products into a zero accumulator, the third layer as a product with the weight row summed along the lanes, turns the
  resulting column into a row, adds the wide scores, halves, takes the sigmoid, and stores (1 − p, p) as the two rows of
  a [2, 4096] block. Entry (j, q) of that block is `outEntry (probRow …) j` of row q of the block.
-/
import proofs.«125932_j23029614641371_2_alg».proof.Proof.Gen.KernelIdeal.Skeleton
import proofs.«125932_j23029614641371_2_alg».proof.Proof.Spec
import proofs.«125932_j23029614641371_2_alg».proof.Proof.LibDenseLayer
import proofs.«125932_j23029614641371_2_alg».proof.Proof.LibColumnRow
import Idealize.ShloMosaic.Lib.Pipeline.Value
import Idealize.ShloMosaic.Lib.ValueLayout
import Idealize.ShloMosaic.PureOps.Ideal.Laws

noncomputable section

namespace Cert.KernelIdeal.BodyValue

open Cert.KernelIdeal Cert.KernelIdeal.Gen Idealize.ShloMosaic Idealize.ShloMosaic.ValueIdx Cert.WideDeep Cert.LibColumnRow

variable (x0 : Vec Ideal S4096x256 .bf16) (x1 : Vec Ideal S1x4096 .f32) (x2 : Vec Ideal S256x128 .bf16)
  (x3 : Vec Ideal S1x128 .f32) (x4 : Vec Ideal S128x64 .bf16) (x5 : Vec Ideal S1x64 .f32) (x6 : Vec Ideal S1x64 .f32)
  (x7 : Vec Ideal S1x1 .f32)

/-- The first dense layer of a block, as the body spells it, at (q, j). -/
theorem layer1_apply (y0 : FVec Ideal S4096x256 .bf16) (y2 : FVec Ideal S256x128 .bf16) (y3 : FVec Ideal S1x128 .f32)
    (q : Fin 4096) (j : Fin 128) :
    (maximumf (addf (matmul dot_S4096x256_S256x128_S4096x128_1_0_0_1_n_n none y0 y2 (constant S4096x128 .f32 0x00000000#32))
        (broadcastTo S4096x128 y3 broadcasts_S1x128_S4096x128)) (broadcast S4096x128 (FloatOps.ofBits .f32 0x00000000#32))
          : FVec Ideal S4096x128 .f32) (ix2 q j)
      = max ((∑ i : Fin 256, y0 (ix2 q i) * y2 (ix2 i j)) + y3 (ix2 (0 : Fin 1) j)) (Ideal.ofBits .f32 0x00000000#32) :=
  Cert.LibDenseLayer.relu_dense_apply y0 y2 y3 broadcasts_S1x128_S4096x128 _ q j

/-- The second dense layer of a block, as the body spells it, at (q, k), for any first-layer output `X`. -/
theorem layer2_apply (X : FVec Ideal S4096x128 .bf16) (y4 : FVec Ideal S128x64 .bf16) (y5 : FVec Ideal S1x64 .f32)
    (q : Fin 4096) (k : Fin 64) :
    (maximumf (addf (matmul dot_S4096x128_S128x64_S4096x64_1_0_0_1_n_n none X y4 (constant S4096x64 .f32 0x00000000#32))
        (broadcastTo S4096x64 y5 broadcasts_S1x64_S4096x64)) (broadcast S4096x64 (FloatOps.ofBits .f32 0x00000000#32))
          : FVec Ideal S4096x64 .f32) (ix2 q k)
      = max ((∑ j : Fin 128, X (ix2 q j) * y4 (ix2 j k)) + y5 (ix2 (0 : Fin 1) k)) (Ideal.ofBits .f32 0x00000000#32) :=
  Cert.LibDenseLayer.relu_dense_apply X y4 y5 broadcasts_S1x64_S4096x64 _ q k

/-- The probability row of a block: entry q is `probRow` of row q of the deep block and entry q of the wide block,
    with the transposed weights read back as [out, in]. -/
theorem prob_apply (q : Fin 4096) :
    k0_pay2 (F := Ideal) x0 x2 x3 x4 x5 x6 x7 x1 (ix2 (0 : Fin 1) q)
      = probRow (fun i => x0 (ix2 q i)) (x1 (ix2 (0 : Fin 1) q)) (fun j i => x2 (ix2 i j)) (fun j => x3 (ix2 (0 : Fin 1) j))
          (fun k j => x4 (ix2 j k)) (fun k => x5 (ix2 (0 : Fin 1) k)) (fun k => x6 (ix2 (0 : Fin 1) k))
          (x7 (ix2 (0 : Fin 1) (0 : Fin 1))) := by
  unfold k0_pay2 probRow
  simp only [shapeCast_self]
  refine congrArg Ideal.logistic (congrArg (_ * ·) (congrArg (x1 _ + ·) ?_))
  refine (transpose_a1_1a_apply _ _ _ _).trans ?_
  refine congrArg₂ (· + ·) ?_ (Cert.LibDenseLayer.broadcastTo_11_ab_apply _ _ _ _)
  refine (shapeCast_a_a1_apply _ _ _ _).trans ?_
  refine (Ideal.multiReduction_add_single _ _ _ _ _ _).trans ?_
  refine Finset.sum_congr rfl fun (k : Fin 64) _ => ?_
  have e : reduces_S4096x64_S4096.lift (ix1 q) k = ix2 q k := idx2_ext _ _ rfl rfl
  refine (congrArg _ e).trans ?_
  refine congrArg₂ (· * ·) ?_ (broadcastTo_1b_ab_apply _ _ _ _)
  refine (layer2_apply _ x4 x5 q k).trans ?_
  refine congrArg (max · _) (congrArg (· + _) (Finset.sum_congr rfl fun (j : Fin 128) _ => congrArg (· * _) ?_))
  exact layer1_apply x0 x2 x3 q j

/-- Entry (j, q) of the stored [2, 4096] block: row 0 is 1 − p, row 1 is p. -/
theorem store_apply (v : FVec Ideal S1x4096 .f32) (j : Fin 2) (q : Fin 4096) :
    k0_pay1 (F := Ideal) v (ix2 j q) = outEntry (v (ix2 (0 : Fin 1) q)) j := by
  unfold k0_pay1 outEntry
  match j with
  | ⟨0, _⟩ =>
    refine Eq.trans ?_ (if_pos rfl).symm
    exact concatenate_pair_apply_left (t := S2x4096) (s₁ := S1x4096) (s₂ := S1x4096) (0 : Fin 2) _ _ concatenates_S1x4096_S1x4096_S2x4096_d0 _ rfl (ix2 (0 : Fin 1) q)
      (fun b => by match b with | ⟨0, _⟩ => rfl | ⟨1, _⟩ => rfl)
  | ⟨1, _⟩ =>
    refine Eq.trans ?_ (if_neg (show ¬ (1 : ℕ) = 0 from Nat.one_ne_zero)).symm
    exact concatenate_pair_apply_right (t := S2x4096) (s₁ := S1x4096) (s₂ := S1x4096) (0 : Fin 2) _ _ concatenates_S1x4096_S1x4096_S2x4096_d0 _ rfl rfl (ix2 (0 : Fin 1) q)
      (fun b hb => by match b with | ⟨0, _⟩ => exact absurd rfl hb | ⟨1, _⟩ => rfl) rfl

/-- Entry `y` of the stored block, from the loaded blocks. -/
theorem block_apply (y : S2x4096.Idx) :
    k0_pay1 (F := Ideal) (k0_pay2 (F := Ideal) x0 x2 x3 x4 x5 x6 x7 x1) y
      = outEntry (probRow (fun i => x0 (ix2 (y 1) i)) (x1 (ix2 (0 : Fin 1) (y 1))) (fun j i => x2 (ix2 i j))
          (fun j => x3 (ix2 (0 : Fin 1) j)) (fun k j => x4 (ix2 j k)) (fun k => x5 (ix2 (0 : Fin 1) k))
          (fun k => x6 (ix2 (0 : Fin 1) k)) (x7 (ix2 (0 : Fin 1) (0 : Fin 1)))) (y 0) := by
  have e : y = ix2 (y 0) (y 1) := eq_ix2 y
  exact (congrArg (k0_pay1 (F := Ideal) (k0_pay2 (F := Ideal) x0 x2 x3 x4 x5 x6 x7 x1)) e).trans
    ((store_apply (k0_pay2 (F := Ideal) x0 x2 x3 x4 x5 x6 x7 x1) (y 0) (y 1)).trans
      (congrArg (outEntry · (y 0)) (prob_apply x0 x1 x2 x3 x4 x5 x6 x7 (y 1))))

end Cert.KernelIdeal.BodyValue

end
-- ==== Proof.PrefixDeep.lean ====
/-
  The deep-input array the kernel's first window tiles.

  Before the region the program slices the two id columns out of x, wraps negative ids, looks up the two embedding
  tables (narrowed to bf16, which changes nothing on the extended reals) and puts the looked-up rows side by side. The
  reference builds its deep input by the same operations on the same arguments, so the two arrays are one function of
  (x, user_emb, movie_emb): the lookups are never opened.
-/
import proofs.«125932_j23029614641371_2_alg».proof.Proof.Gen.KernelIdeal.Frame
import proofs.«125932_j23029614641371_2_alg».proof.Proof.Gen.ReferenceIdeal.Read
import Idealize.ShloMosaic.Lib.StableHlo.Run

noncomputable section

namespace Cert.KernelIdeal.Prefix

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

set_option maxHeartbeats 4000000 in
/-- The [131072, 256] deep-input array as the region finds it is the reference's deep-input stage of the arguments. -/
theorem deepIn_eq (c : Dev nD) :
    (V m c main_v20 : S131072x256.Idx → EReal) = Cert.ReferenceIdeal.Read.val_main_v18 (F := Ideal)
      (m ((c.tc : Thread nD τ).loc main_arg0)) (m ((c.tc : Thread nD τ).loc main_arg1)) (m ((c.tc : Thread nD τ).loc main_arg2)) := by
  show StableHlo.after hostOps0 (fun b => m (c, b)) (Proc.devRef .tc main_v20) = _
  after_results
  rfl

end Cert.KernelIdeal.Prefix

end
-- ==== Proof.PrefixWide.lean ====
/-
  The wide-score row the kernel's second window tiles.

  Before the region the program looks up two entries of the wide weight row per batch row (the user id, and the movie id
  shifted past the user block, negative ids wrapped), adds them and the wide bias, and lays the 131072 scores out as a
  [1, 131072] row. The reference computes the same scores by the same operations on the same arguments; the row is
  that vector with a leading unit axis.
-/
import proofs.«125932_j23029614641371_2_alg».proof.Proof.Gen.KernelIdeal.Frame
import proofs.«125932_j23029614641371_2_alg».proof.Proof.Gen.ReferenceIdeal.Read
import Idealize.ShloMosaic.Lib.StableHlo.Run

noncomputable section

namespace Cert.KernelIdeal.Prefix

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

set_option maxHeartbeats 4000000 in
/-- The [1, 131072] wide-score row as the region finds it: the reference's wide-score stage, broadcast along a new
    leading unit axis. -/
theorem wideRow_eq (c : Dev nD) :
    (V m c main_v49 : S1x131072.Idx → EReal) = broadcastInDim S1x131072 ![1] bcast_S131072_S1x131072_1
      (Cert.ReferenceIdeal.Read.val_main_v63 (F := Ideal)
        (m ((c.tc : Thread nD τ).loc main_arg0)) (m ((c.tc : Thread nD τ).loc main_arg3)) (m ((c.tc : Thread nD τ).loc main_arg4))) := by
  show StableHlo.after hostOps0 (fun b => m (c, b)) (Proc.devRef .tc main_v49) = _
  after_results
  rfl

end Cert.KernelIdeal.Prefix

end
-- ==== Proof.PrefixW1.lean ====
/-
  The first layer's weight matrix as the kernel's window finds it: the [128, 256] argument transposed to [in, out]
  (and narrowed to bf16, the identity on the extended reals).
-/
import proofs.«125932_j23029614641371_2_alg».proof.Proof.Gen.KernelIdeal.Frame
import Idealize.ShloMosaic.PureOps.Ideal
import Idealize.ShloMosaic.Lib.StableHlo.Run

noncomputable section

namespace Cert.KernelIdeal.Prefix

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

set_option maxHeartbeats 4000000 in
/-- The first layer's weights [256, 128]: the [128, 256] argument transposed. -/
theorem w1t_eq (c : Dev nD) :
    (V m c main_v51 : S256x128.Idx → EReal) = truncf .bf16 (transpose S256x128 [1, 0]
      (m ((c.tc : Thread nD τ).loc main_arg5)) transposes_S128x256_S256x128_1_0 : FVec Ideal S256x128 .f32) bitsLt_bf16_f32 := by
  show StableHlo.after hostOps0 (fun b => m (c, b)) (Proc.devRef .tc main_v51) = _
  after_results

end Cert.KernelIdeal.Prefix

end
-- ==== Proof.PrefixW2.lean ====
/-
  The second layer's weight matrix as the kernel's window finds it: the [64, 128] argument transposed to [in, out]
  (and narrowed to bf16, the identity on the extended reals).
-/
import proofs.«125932_j23029614641371_2_alg».proof.Proof.Gen.KernelIdeal.Frame
import Idealize.ShloMosaic.PureOps.Ideal
import Idealize.ShloMosaic.Lib.StableHlo.Run

noncomputable section

namespace Cert.KernelIdeal.Prefix

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

set_option maxHeartbeats 4000000 in
/-- The second layer's weights [128, 64]: the [64, 128] argument transposed. -/
theorem w2t_eq (c : Dev nD) :
    (V m c main_v53 : S128x64.Idx → EReal) = truncf .bf16 (transpose S128x64 [1, 0]
      (m ((c.tc : Thread nD τ).loc main_arg7)) transposes_S64x128_S128x64_1_0 : FVec Ideal S128x64 .f32) bitsLt_bf16_f32 := by
  show StableHlo.after hostOps0 (fun b => m (c, b)) (Proc.devRef .tc main_v53) = _
  after_results

end Cert.KernelIdeal.Prefix

end
-- ==== Proof.PrefixB1.lean ====
/-
  The first layer's bias as the kernel's window finds it: the argument vector reshaped to one row.
-/
import proofs.«125932_j23029614641371_2_alg».proof.Proof.Gen.KernelIdeal.Frame
import Idealize.ShloMosaic.PureOps.Ideal
import Idealize.ShloMosaic.Lib.StableHlo.Run

noncomputable section

namespace Cert.KernelIdeal.Prefix

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

set_option maxHeartbeats 4000000 in
/-- The first layer's bias as a [1, 128] row. -/
theorem b1row_eq (c : Dev nD) :
    (V m c main_v54 : S1x128.Idx → EReal) = shapeCast S1x128 (m ((c.tc : Thread nD τ).loc main_arg6)) shapeCasts_S128_S1x128 := by
  show StableHlo.after hostOps0 (fun b => m (c, b)) (Proc.devRef .tc main_v54) = _
  after_results
  rfl

end Cert.KernelIdeal.Prefix

end
-- ==== Proof.PrefixB2.lean ====
/-
  The second layer's bias as the kernel's window finds it: the argument vector reshaped to one row.
-/
import proofs.«125932_j23029614641371_2_alg».proof.Proof.Gen.KernelIdeal.Frame
import Idealize.ShloMosaic.PureOps.Ideal
import Idealize.ShloMosaic.Lib.StableHlo.Run

noncomputable section

namespace Cert.KernelIdeal.Prefix

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

set_option maxHeartbeats 4000000 in
/-- The second layer's bias as a [1, 64] row. -/
theorem b2row_eq (c : Dev nD) :
    (V m c main_v55 : S1x64.Idx → EReal) = shapeCast S1x64 (m ((c.tc : Thread nD τ).loc main_arg8)) shapeCasts_S64_S1x64 := by
  show StableHlo.after hostOps0 (fun b => m (c, b)) (Proc.devRef .tc main_v55) = _
  after_results
  rfl

end Cert.KernelIdeal.Prefix

end
-- ==== Proof.PrefixB3.lean ====
/-
  The output bias as the kernel's window finds it: the one-entry argument vector reshaped to [1, 1].
-/
import proofs.«125932_j23029614641371_2_alg».proof.Proof.Gen.KernelIdeal.Frame
import Idealize.ShloMosaic.PureOps.Ideal
import Idealize.ShloMosaic.Lib.StableHlo.Run

noncomputable section

namespace Cert.KernelIdeal.Prefix

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

set_option maxHeartbeats 4000000 in
/-- The output bias as a [1, 1] array. -/
theorem b3_eq (c : Dev nD) :
    (V m c main_v56 : S1x1.Idx → EReal) = shapeCast S1x1 (m ((c.tc : Thread nD τ).loc main_arg10)) shapeCasts_S1_S1x1 := by
  show StableHlo.after hostOps0 (fun b => m (c, b)) (Proc.devRef .tc main_v56) = _
  after_results
  rfl

end Cert.KernelIdeal.Prefix

end
-- ==== Proof.Blocks.lean ====
/-
  From the blocks the grid points write back to the whole [2, 131072] array the region leaves.

  Grid point t (of 32) reads rows 4096·t … 4096·t + 4095 of the deep-input array and the same stretch of the wide-score
  row, every parameter array whole, and writes columns 4096·t … 4096·t + 4095 of the [2, 131072] result. What it writes
  is, entry by entry, the block of ONE whole-array function `outT` (Spec.lean's `resultT` of the deep-input array, the
  wide scores and the six parameters): a row's score depends on that row alone. The 32 column blocks cover the array,
  so after the region the array is `outT`.
-/
import proofs.«125932_j23029614641371_2_alg».proof.Proof.Gen.KernelIdeal.Frame
import proofs.«125932_j23029614641371_2_alg».proof.Proof.BodyValue
import proofs.«125932_j23029614641371_2_alg».proof.Proof.Spec
import proofs.«125932_j23029614641371_2_alg».proof.Proof.PrefixDeep
import proofs.«125932_j23029614641371_2_alg».proof.Proof.PrefixWide
import proofs.«125932_j23029614641371_2_alg».proof.Proof.PrefixW1
import proofs.«125932_j23029614641371_2_alg».proof.Proof.PrefixW2
import proofs.«125932_j23029614641371_2_alg».proof.Proof.PrefixB1
import proofs.«125932_j23029614641371_2_alg».proof.Proof.PrefixB2
import proofs.«125932_j23029614641371_2_alg».proof.Proof.PrefixB3
import Idealize.ShloMosaic.Lib.Pipeline.Value
import Idealize.ShloMosaic.Lib.ValueLayout

set_option maxRecDepth 16384

noncomputable section

namespace Cert.KernelIdeal.Blocks

open Idealize.ShloMosaic Idealize.ShloMosaic.TcCoe Idealize.SL.Sem Idealize.ShloMosaic.ValueIdx
open Cert.KernelIdeal Cert.KernelIdeal.Gen Cert.WideDeep
open Cert.LibColumnRow (idx2_ext)

variable (m : (ℓ : Loc nD τ sig) → Buf (Elt Ideal) ℓ)

/-- The deep-input array of the arguments on core `c`. -/
abbrev deepArr (c : Dev nD) : (⟨2, ![131072, 256]⟩ : Shape).Idx → EReal :=
  Cert.ReferenceIdeal.Read.val_main_v18 (F := Ideal)
    (m ((c.tc : Thread nD τ).loc main_arg0)) (m ((c.tc : Thread nD τ).loc main_arg1)) (m ((c.tc : Thread nD τ).loc main_arg2))

/-- The wide scores of the arguments on core `c`. -/
abbrev wideArr (c : Dev nD) : (⟨1, ![131072]⟩ : Shape).Idx → EReal :=
  Cert.ReferenceIdeal.Read.val_main_v63 (F := Ideal)
    (m ((c.tc : Thread nD τ).loc main_arg0)) (m ((c.tc : Thread nD τ).loc main_arg3)) (m ((c.tc : Thread nD τ).loc main_arg4))

/-- The [2, 131072] array the region leaves, as one function of the arguments. -/
def outT (c : Dev nD) : S2x131072.Idx → EReal :=
  resultT (deepArr m c) (wideArr m c) (m ((c.tc : Thread nD τ).loc main_arg5)) (m ((c.tc : Thread nD τ).loc main_arg6))
    (m ((c.tc : Thread nD τ).loc main_arg7)) (m ((c.tc : Thread nD τ).loc main_arg8))
    (m ((c.tc : Thread nD τ).loc main_arg9)) (m ((c.tc : Thread nD τ).loc main_arg10))

/-- `outT` at column `j`, batch row `r`. -/
theorem outT_at (c : Dev nD) (j : Fin 2) (r : Fin 131072) :
    outT m c (ix2 j r) = outEntry (probRow (fun k => deepArr m c (ix2 r k)) (wideArr m c (ix1 r))
      (fun a b => (m ((c.tc : Thread nD τ).loc main_arg5) : S128x256.Idx → EReal) (ix2 a b))
      (fun a => (m ((c.tc : Thread nD τ).loc main_arg6) : S128.Idx → EReal) (ix1 a))
      (fun a b => (m ((c.tc : Thread nD τ).loc main_arg7) : S64x128.Idx → EReal) (ix2 a b))
      (fun a => (m ((c.tc : Thread nD τ).loc main_arg8) : S64.Idx → EReal) (ix1 a))
      (fun a => (m ((c.tc : Thread nD τ).loc main_arg9) : S1x64.Idx → EReal) (ix2 (0 : Fin 1) a))
      ((m ((c.tc : Thread nD τ).loc main_arg10) : S1.Idx → EReal) (ix1 (0 : Fin 1)))) j := rfl

/-- The printed index maps over the 32 grid points: the deep-input and wide-score windows and the result window move
    with the point along the batch axis, the parameter windows stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = t.val ∧ t.val < 32 :=
  (by decide +kernel : ∀ t : Fin grid0.N, _)

/-! ## Each input block read off its array -/

/-- Row q of point t's deep-input block is row 4096·t + q of the deep-input array. -/
theorem blk_deep (c : Dev nD) (t : Fin cfg0.N) (y : S4096x256.Idx) (g : S131072x256.Idx)
    (h0 : (g 0).val = t.val * 4096 + (y 0).val) (h1 : (g 1).val = (y 1).val) :
    iblk m c 0 t y = deepArr m c g := by
  obtain ⟨e0, e1, -⟩ := idx_facts t
  refine Eq.trans ?_ (congrFun (Cert.KernelIdeal.Prefix.deepIn_eq m c) g)
  show V m c main_v20 (((cfg0.win 0).blk t).view.emb y) = V m c main_v20 g
  refine congrArg _ (funext fun a => Fin.ext ?_)
  match a with
  | ⟨0, _⟩ => show win0_0.index t (0 : Fin 2) * 4096 + 1 * (y 0).val = (g 0).val; omega
  | ⟨1, _⟩ => show win0_0.index t (1 : Fin 2) * 256 + 1 * (y 1).val = (g 1).val; omega

/-- Entry q of point t's wide-score block is entry 4096·t + q of the wide scores. -/
theorem blk_wide (c : Dev nD) (t : Fin cfg0.N) (y : S1x4096.Idx) (g : S131072.Idx)
    (h0 : (g 0).val = t.val * 4096 + (y 1).val) :
    iblk m c 1 t y = wideArr m c g := by
  obtain ⟨-, -, e0, e1, -⟩ := idx_facts t
  show V m c main_v49 (((cfg0.win 1).blk t).view.emb y) = _
  rw [Cert.KernelIdeal.Prefix.wideRow_eq m c]
  refine broadcastInDim_apply _ bcast_S131072_S1x131072_1 _ _ g (fun a => ?_)
  match a with
  | ⟨0, _⟩ =>
    show (g 0).val = if (131072 : ℕ) = 1 then 0 else win0_1.index t (1 : Fin 2) * 4096 + 1 * (y 1).val
    rw [if_neg (by decide)]; omega

/-- Point t's first-layer weight block is the whole transposed matrix: entry (i, j) is w1 (j, i). -/
theorem blk_w1 (c : Dev nD) (t : Fin cfg0.N) (i : Fin 256) (j : Fin 128) :
    iblk m c 2 t (ix2 i j) = (m ((c.tc : Thread nD τ).loc main_arg5) : S128x256.Idx → EReal) (ix2 j i) := by
  obtain ⟨-, -, -, -, e0, e1, -⟩ := idx_facts t
  show V m c main_v51 (((cfg0.win 2).blk t).view.emb (ix2 i j)) = _
  rw [Cert.KernelIdeal.Prefix.w1t_eq m c]
  refine transpose_apply [1, 0] _ transposes_S128x256_S256x128_1_0 _ (ix2 j i) (fun b => ?_)
  match b with
  | ⟨0, _⟩ => show i.val = win0_2.index t (0 : Fin 2) * 256 + 1 * i.val; omega
  | ⟨1, _⟩ => show j.val = win0_2.index t (1 : Fin 2) * 128 + 1 * j.val; omega

/-- Point t's second-layer weight block is the whole transposed matrix: entry (j, k) is w2 (k, j). -/
theorem blk_w2 (c : Dev nD) (t : Fin cfg0.N) (j : Fin 128) (k : Fin 64) :
    iblk m c 4 t (ix2 j k) = (m ((c.tc : Thread nD τ).loc main_arg7) : S64x128.Idx → EReal) (ix2 k j) := by
  obtain ⟨-, -, -, -, -, -, -, -, e0, e1, -⟩ := idx_facts t
  show V m c main_v53 (((cfg0.win 4).blk t).view.emb (ix2 j k)) = _
  rw [Cert.KernelIdeal.Prefix.w2t_eq m c]
  refine transpose_apply [1, 0] _ transposes_S64x128_S128x64_1_0 _ (ix2 k j) (fun b => ?_)
  match b with
  | ⟨0, _⟩ => show j.val = win0_4.index t (0 : Fin 2) * 128 + 1 * j.val; omega
  | ⟨1, _⟩ => show k.val = win0_4.index t (1 : Fin 2) * 64 + 1 * k.val; omega

/-- Point t's first bias block is the bias row: entry (0, j) is b1 j. -/
theorem blk_b1 (c : Dev nD) (t : Fin cfg0.N) (j : Fin 128) :
    iblk m c 3 t (ix2 (0 : Fin 1) j) = (m ((c.tc : Thread nD τ).loc main_arg6) : S128.Idx → EReal) (ix1 j) := by
  obtain ⟨-, -, -, -, -, -, e0, e1, -⟩ := idx_facts t
  show V m c main_v54 (((cfg0.win 3).blk t).view.emb (ix2 (0 : Fin 1) j)) = _
  rw [Cert.KernelIdeal.Prefix.b1row_eq m c]
  refine shapeCast_apply _ shapeCasts_S128_S1x128 _ (ix1 j) ?_
  rw [Shape.rowMajor_val_two, Shape.rowMajor_val_one]
  show j.val = (win0_3.index t (0 : Fin 2) * 1 + 1 * 0) * 128 + (win0_3.index t (1 : Fin 2) * 128 + 1 * j.val)
  omega

/-- Point t's second bias block is the bias row: entry (0, k) is b2 k. -/
theorem blk_b2 (c : Dev nD) (t : Fin cfg0.N) (k : Fin 64) :
    iblk m c 5 t (ix2 (0 : Fin 1) k) = (m ((c.tc : Thread nD τ).loc main_arg8) : S64.Idx → EReal) (ix1 k) := by
  obtain ⟨-, -, -, -, -, -, -, -, -, -, e0, e1, -⟩ := idx_facts t
  show V m c main_v55 (((cfg0.win 5).blk t).view.emb (ix2 (0 : Fin 1) k)) = _
  rw [Cert.KernelIdeal.Prefix.b2row_eq m c]
  refine shapeCast_apply _ shapeCasts_S64_S1x64 _ (ix1 k) ?_
  rw [Shape.rowMajor_val_two, Shape.rowMajor_val_one]
  show k.val = (win0_5.index t (0 : Fin 2) * 1 + 1 * 0) * 64 + (win0_5.index t (1 : Fin 2) * 64 + 1 * k.val)
  omega

/-- Point t's output-weight block is the weight row itself. -/
theorem blk_w3 (c : Dev nD) (t : Fin cfg0.N) (k : Fin 64) :
    iblk m c 6 t (ix2 (0 : Fin 1) k) = (m ((c.tc : Thread nD τ).loc main_arg9) : S1x64.Idx → EReal) (ix2 (0 : Fin 1) k) := by
  obtain ⟨-, -, -, -, -, -, -, -, -, -, -, -, e0, e1, -⟩ := idx_facts t
  show V m c main_arg9 (((cfg0.win 6).blk t).view.emb (ix2 (0 : Fin 1) k)) = _
  rw [V_main_arg9 m c]
  refine congrArg _ (idx2_ext _ _ ?_ ?_)
  · show win0_6.index t (0 : Fin 2) * 1 + 1 * 0 = 0; omega
  · show win0_6.index t (1 : Fin 2) * 64 + 1 * k.val = k.val; omega

/-- Point t's output-bias block is the one bias entry. -/
theorem blk_b3 (c : Dev nD) (t : Fin cfg0.N) :
    iblk m c 7 t (ix2 (0 : Fin 1) (0 : Fin 1)) = (m ((c.tc : Thread nD τ).loc main_arg10) : S1.Idx → EReal) (ix1 (0 : Fin 1)) := by
  obtain ⟨-, -, -, -, -, -, -, -, -, -, -, -, -, -, e0, e1, -⟩ := idx_facts t
  show V m c main_v56 (((cfg0.win 7).blk t).view.emb (ix2 (0 : Fin 1) (0 : Fin 1))) = _
  rw [Cert.KernelIdeal.Prefix.b3_eq m c]
  refine shapeCast_apply _ shapeCasts_S1_S1x1 _ (ix1 (0 : Fin 1)) ?_
  rw [Shape.rowMajor_val_two, Shape.rowMajor_val_one]
  show 0 = (win0_7.index t (0 : Fin 2) * 1 + 1 * 0) * 1 + (win0_7.index t (1 : Fin 2) * 1 + 1 * 0)
  omega

/-! ## What a point writes back, the cover, the array -/

theorem hz : (![0, 0] : Fin 2 → Nat) = fun _ => 0 := funext fun a => by fin_cases a <;> rfl

/-- The score of a row depends on its eight inputs only. -/
theorem probRow_congr {d d' : Fin 256 → EReal} {wd wd' : EReal} {w1 w1' : Fin 128 → Fin 256 → EReal} {b1 b1' : Fin 128 → EReal}
    {w2 w2' : Fin 64 → Fin 128 → EReal} {b2 b2' : Fin 64 → EReal} {w3 w3' : Fin 64 → EReal} {b3 b3' : EReal}
    (h1 : d = d') (h2 : wd = wd') (h3 : w1 = w1') (h4 : b1 = b1') (h5 : w2 = w2') (h6 : b2 = b2') (h7 : w3 = w3') (h8 : b3 = b3') :
    probRow d wd w1 b1 w2 b2 w3 b3 = probRow d' wd' w1' b1' w2' b2' w3' b3' := by
  subst h1 h2 h3 h4 h5 h6 h7 h8; rfl

/-- Entry `y` of point `t`'s result block sits at column `y 0`, batch row 4096·t + `y 1` of the array. -/
theorem emb_out (t : Fin cfg0.N) (y : S2x4096.Idx) (hr : t.val * 4096 + (y 1).val < 131072) :
    ((cfg0.win 8).blk t).view.emb y = ix2 (y 0) (⟨t.val * 4096 + (y 1).val, hr⟩ : Fin 131072) := by
  obtain ⟨-, -, -, -, -, -, -, -, -, -, -, -, -, -, -, -, e0, e1, -⟩ := idx_facts t
  have hy0 : (y 0).val < 2 := (y 0).isLt
  refine idx2_ext _ _ ?_ ?_
  · show win0_8.index t (0 : Fin 2) * 2 + 1 * (y 0).val = (y 0).val; omega
  · show win0_8.index t (1 : Fin 2) * 4096 + 1 * (y 1).val = t.val * 4096 + (y 1).val; omega

/-- What the body stores at entry `y` of point `t`'s block, from the point's input blocks, is `outT` at column `y 0`,
    batch row 4096·t + `y 1`. -/
theorem stored_at (c : Dev nD) (t : Fin cfg0.N) (y : S2x4096.Idx) (hr : t.val * 4096 + (y 1).val < 131072) :
    k0_pay1 (F := Ideal) (k0_pay2 (F := Ideal) (iblk m c 0 t) (iblk m c 2 t) (iblk m c 3 t) (iblk m c 4 t) (iblk m c 5 t)
        (iblk m c 6 t) (iblk m c 7 t) (iblk m c 1 t)) y
      = outT m c (ix2 (y 0) (⟨t.val * 4096 + (y 1).val, hr⟩ : Fin 131072)) := by
  refine (Cert.KernelIdeal.BodyValue.block_apply (iblk m c 0 t) (iblk m c 1 t) (iblk m c 2 t) (iblk m c 3 t) (iblk m c 4 t)
    (iblk m c 5 t) (iblk m c 6 t) (iblk m c 7 t) y).trans ?_
  refine Eq.trans ?_ (outT_at m c (y 0) ⟨t.val * 4096 + (y 1).val, hr⟩).symm
  refine congrArg (outEntry · (y 0)) ?_
  exact probRow_congr
    (funext fun i => blk_deep m c t (ix2 (y 1) i) (ix2 (⟨t.val * 4096 + (y 1).val, hr⟩ : Fin 131072) i) rfl rfl)
    (blk_wide m c t (ix2 (0 : Fin 1) (y 1)) (ix1 (⟨t.val * 4096 + (y 1).val, hr⟩ : Fin 131072)) rfl)
    (funext fun j => funext fun i => blk_w1 m c t i j) (funext fun j => blk_b1 m c t j)
    (funext fun k => funext fun j => blk_w2 m c t j k) (funext fun k => blk_b2 m c t k)
    (funext fun k => blk_w3 m c t k) (blk_b3 m c t)

/-- WHAT POINT `t` WRITES BACK is block `t` of `outT`. -/
theorem flushed_eq (c : Dev nD) (t : Fin cfg0.N) :
    (dats m 0 c).flushed 8 t = ((cfg0.win 8).blk t).view.read (Elt Ideal) (outT m c) := by
  show (cfg0.win 8).cut (grid0.coords t) ((dats m 0 c).after 8 t) = _
  rw [after0_8]
  unfold out0_8
  rw [View.canon_unit_zero hz]
  simp only [View.ld_unit_zero (S := S4096x256) hz, View.ld_unit_zero (S := S256x128) hz, View.ld_unit_zero (S := S1x128) hz,
    View.ld_unit_zero (S := S128x64) hz, View.ld_unit_zero (S := S1x64) hz, View.ld_unit_zero (S := S1x1) hz,
    View.ld_unit_zero (S := S1x4096) hz]
  funext y
  have ht : t.val < 32 := (idx_facts t).2.2.2.2.2.2.2.2.2.2.2.2.2.2.2.2.2.2
  have hr : t.val * 4096 + ((y : S2x4096.Idx) 1).val < 131072 := by
    have hy1 : ((y : S2x4096.Idx) 1).val < 4096 := ((y : S2x4096.Idx) 1).isLt
    omega
  exact (stored_at m c t y hr).trans (congrArg (outT m c) (emb_out t y hr).symm)

/-- An index of the array is in point `t`'s block iff each coordinate is in the block's range on its axis. -/
theorem mem_blk (t : Fin cfg0.N) (i : S2x131072.Idx) :
    i ∈ ((cfg0.win 8).blk t).view.set ↔ ∀ a : Fin 2, win0_8.index t a * S2x4096.size a ≤ (i a).val
      ∧ (i a).val < win0_8.index t a * S2x4096.size a + S2x4096.size a := by
  show i ∈ ((View.whole main_v57).slice (win0_8.rect t)).set ↔ _
  rw [View.set_slice_whole, Rect.mem_set_unit]
  exact Iff.rfl

/-- Every index of the [2, 131072] array is in the block of the point its column's 4096-stretch names. -/
theorem cover (i : S2x131072.Idx) :
    ∃ t : Fin cfg0.N, (cfg0.win 8).flush t = true ∧ i ∈ ((cfg0.win 8).blk t).view.set := by
  have hi0 : (i 0).val < 2 := (i 0).isLt
  have hi1 : (i 1).val < 131072 := (i 1).isLt
  have hN : (i 1).val / 4096 < cfg0.N := by rw [show cfg0.N = 32 from N_0]; omega
  obtain ⟨-, -, -, -, -, -, -, -, -, -, -, -, -, -, -, -, e0, e1, -⟩ := idx_facts ⟨(i 1).val / 4096, hN⟩
  refine ⟨⟨(i 1).val / 4096, hN⟩, flush0_8 _, ?_⟩
  rw [mem_blk]
  intro a
  match a with
  | ⟨0, _⟩ =>
    show win0_8.index ⟨(i 1).val / 4096, hN⟩ (0 : Fin 2) * 2 ≤ (i 0).val
      ∧ (i 0).val < win0_8.index ⟨(i 1).val / 4096, hN⟩ (0 : Fin 2) * 2 + 2
    omega
  | ⟨1, _⟩ =>
    show win0_8.index ⟨(i 1).val / 4096, hN⟩ (1 : Fin 2) * 4096 ≤ (i 1).val
      ∧ (i 1).val < win0_8.index ⟨(i 1).val / 4096, hN⟩ (1 : Fin 2) * 4096 + 4096
    have e1' : win0_8.index ⟨(i 1).val / 4096, hN⟩ (1 : Fin 2) = (i 1).val / 4096 := e1
    omega

/-- THE ARRAY after the region is `outT`. -/
theorem final (c : Dev nD) : (dats m 0 c).arrAt 8 cfg0.N = outT m c :=
  (dats m 0 c).arrAt_eq_of_cover 8 (outT m c) (fun t _ => flushed_eq m c t) cover

end Cert.KernelIdeal.Blocks

end
-- ==== Proof.KernelRun.lean ====
/-
  The kernel program's run, read: after the region the program transposes the [2, 131072] array the region leaves into
  the [131072, 2] result, so the result's entry (r, j) is the region array's entry (j, r) — Spec.lean's `result` of the
  deep-input array, the wide scores and the six parameters. The eleven arguments end unchanged.
-/
import proofs.«125932_j23029614641371_2_alg».proof.Proof.Gen.KernelIdeal.Frame
import proofs.«125932_j23029614641371_2_alg».proof.Proof.Blocks
import proofs.«125932_j23029614641371_2_alg».proof.Proof.Spec
import Idealize.ShloMosaic.Lib.StableHlo.Run
import Idealize.ShloMosaic.Lib.Pipeline.Value

set_option maxRecDepth 16384

noncomputable section

namespace Cert.KernelIdeal.KernelRun

open Idealize.ShloMosaic Idealize.ShloMosaic.TcCoe Idealize.SL.Sem Idealize.ShloMosaic.ValueIdx Idealize.ShloMosaic.StableHlo
open Cert.KernelIdeal Cert.KernelIdeal.Gen Cert.WideDeep Cert.KernelIdeal.Blocks

variable (m : (ℓ : Loc nD τ sig) → Buf (Elt Ideal) ℓ) (ρ : Dev nD → PrngReg)

/-- The [131072, 2] result as one function of the arguments on core `c`. -/
def out (c : Dev nD) : S131072x2.Idx → EReal :=
  result (deepArr m c) (wideArr m c) (m ((c.tc : Thread nD τ).loc main_arg5)) (m ((c.tc : Thread nD τ).loc main_arg6))
    (m ((c.tc : Thread nD τ).loc main_arg7)) (m ((c.tc : Thread nD τ).loc main_arg8))
    (m ((c.tc : Thread nD τ).loc main_arg9)) (m ((c.tc : Thread nD τ).loc main_arg10))

set_option maxHeartbeats 2000000 in
/-- The line after the region transposes the region's array: the result is `out`. -/
theorem tail_eq (c : Dev nD) :
    Pipeline.afterTail₀ cfgs (dats m) 0 (V0 m) [hostOps1] c main_v58 = out m c := by
  unfold Pipeline.afterTail₀
  show StableHlo.after hostOps1 _ (Proc.devRef .tc main_v58) = _
  after_results
  have hw : Pipeline.withArrays (cfgs 0).spec c (V0 m c) (fun w => (dats m 0 c).arrAt w (cfgs 0).N)
      (Proc.devRef .tc main_v57) = outT m c :=
    (Pipeline.withArrays_arr spec0 launch0.win.arr_inj c _ _ 8).trans (Blocks.final m c)
  rw [hw]
  funext i
  refine (transpose_apply [1, 0] (outT m c) transposes_S2x131072_S131072x2_1_0 i (ix2 (i 1) (i 0))
    (fun b => by match b with | ⟨0, _⟩ => rfl | ⟨1, _⟩ => rfl)).trans ?_
  rfl

/-- Every weakly fair execution of the kernel program terminates with the result at `out` and the arguments unchanged. -/
theorem run : θ_run defs (onTc (τ := τ) (main (F := Ideal))) ⟨m, fun _ => 0, ρ⟩ (fun r => ∀ c : Dev nD,
      r.2.mem ((c.tc : Thread nD τ).loc main_v58) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_v58 (Pipeline.mem_restRefs_of main_v58 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      ((h c).1 6).trans (((dats m 0 c).arrAt_in 6 rfl _).trans ((A_eq m c 6).trans (V_main_arg9 m c))),
      (((h c).2 main_arg10 (Pipeline.mem_restRefs_of main_arg10 (by decide) (by decide))).trans (W_main_arg10 m (dats m) c))⟩) (run_main m ρ)

end Cert.KernelIdeal.KernelRun

end
-- ==== Proof.lean ====
/-
  The certificate of the wide-and-deep kernel against its reference.

  Both programs compute, for every batch row, p = sigmoid(½ · (wide + deep)) and return (1 − p, p), where wide is the sum of
  two looked-up weights and a bias and deep is a three-layer perceptron of two looked-up embedding rows side by side.
  The kernel program does the lookups on the host, runs the perceptron and the sigmoid in a kernel over 32 blocks of
  4096 rows with the result laid out [2, 131072], and transposes it; the reference does everything as whole-array
  operations with the sigmoid written out as 1 / (1 + e^(−z)). On the extended reals the two results are the same
  function of the arguments, entry by entry (Spec.lean): the lookups are the same operations on the same arguments and
  are never opened, each matrix product is the same sum in the same order, a change of float format is the identity,
  and the written-out sigmoid is the sigmoid. No algebraic law beyond that is used, so the precondition is not needed.
  The three frames are the generated ones (the reference's is its generated run with the result dropped); the ideal
  pass made no rewrite, so `preserves` is trivial.
-/
import proofs.«125932_j23029614641371_2_alg».proof.Defs
import proofs.«125932_j23029614641371_2_alg».proof.Proof.Gen.Kernel
import proofs.«125932_j23029614641371_2_alg».proof.Proof.Gen.Kernel.Skeleton
import proofs.«125932_j23029614641371_2_alg».proof.Proof.Gen.Kernel.Launch
import proofs.«125932_j23029614641371_2_alg».proof.Proof.Gen.Kernel.Points
import proofs.«125932_j23029614641371_2_alg».proof.Proof.Gen.Kernel.Frame
import proofs.«125932_j23029614641371_2_alg».proof.Proof.Gen.KernelIdeal
import proofs.«125932_j23029614641371_2_alg».proof.Proof.Gen.KernelIdeal.Skeleton
import proofs.«125932_j23029614641371_2_alg».proof.Proof.Gen.KernelIdeal.Launch
import proofs.«125932_j23029614641371_2_alg».proof.Proof.Gen.KernelIdeal.Points
import proofs.«125932_j23029614641371_2_alg».proof.Proof.Gen.KernelIdeal.Frame
import proofs.«125932_j23029614641371_2_alg».proof.Proof.Gen.ReferenceIdeal
import proofs.«125932_j23029614641371_2_alg».proof.Proof.Gen.ReferenceIdeal.Run
import proofs.«125932_j23029614641371_2_alg».proof.Proof.Gen.ReferenceIdeal.Read
import proofs.«125932_j23029614641371_2_alg».proof.Proof.Gen.Pre_finite_inputs
import proofs.«125932_j23029614641371_2_alg».proof.Proof.RefValue
import proofs.«125932_j23029614641371_2_alg».proof.Proof.KernelRun
import Idealize.ShloMosaic.Adequacy
import Idealize.ShloMosaic.Init

noncomputable section

namespace Cert.Proof

open Idealize.ShloMosaic Idealize.SL.Sem Cert.Kernel

/-- The two idealized programs, run from memories that agree on the arguments, end with equal results: both are
    Spec.lean's `result` of the same deep-input array, wide scores and parameters. -/
theorem algebraic : Cert.algebraic_KernelIdeal_ReferenceIdeal := by
  intro m ρ m' ρ' _ hagree
  refine ⟨fun c => Cert.KernelIdeal.KernelRun.out m c, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v76_eq, Cert.ReferenceIdeal.RefValue.result_eq, h0, h1, h2, h3, h4, h5, h6, h7, h8, h9, h10]
  rfl

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
